-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel

variable [Facts]

def fn {F : FTy → Type} [FloatOps F] (main_arg0 : FVec F S4x8192x128 .f32) (main_arg1 : FVec F S4x8192x128 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x8192x128 .f32 := Host.absf main_arg1
  let main_cst_0 : FVec F S_ .f32 := constant S_ .f32 0x7F800000#32
  let main_v5 : FVec F S4x8192x128 .f32 := broadcastInDim S4x8192x128 ![] bcast_S_S4x8192x128 main_cst_0
  let main_v6 : IVec S4x8192x128 1 := cmpf .olt main_v4 main_v5
  let main_c_1 : IVec S_ 1 := constantI S_ 1 1#1
  let main_v7 : IVec S_ 1 := (fun x v => Host.reduce IntOp.andi x v reducesTo_S4x8192x128_S_d0_1_2 h_S_) main_v6 main_c_1
  let main_v8 : IVec S_ 1 := andi main_v3 main_v7
  main_v8
-- ==== Kernel.lean ====
abbrev S4x8192x128 : Shape := ⟨3, ![4, 8192, 128]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S1x4096x128 : Shape := ⟨3, ![1, 4096, 128]⟩
abbrev S1x256x128 : Shape := ⟨3, ![1, 256, 128]⟩
abbrev S1x4096x1 : Shape := ⟨3, ![1, 4096, 1]⟩
abbrev S1x1x256 : Shape := ⟨3, ![1, 1, 256]⟩
abbrev S1x1x8192 : Shape := ⟨3, ![1, 1, 8192]⟩
abbrev S4096x1 : Shape := ⟨2, ![4096, 1]⟩
abbrev S1x8192 : Shape := ⟨2, ![1, 8192]⟩
abbrev S4096x128 : Shape := ⟨2, ![4096, 128]⟩
abbrev S256x128 : Shape := ⟨2, ![256, 128]⟩
abbrev S128x256 : Shape := ⟨2, ![128, 256]⟩
abbrev S4096x256 : Shape := ⟨2, ![4096, 256]⟩
abbrev S1x256 : Shape := ⟨2, ![1, 256]⟩
abbrev S4096 : Shape := ⟨1, ![4096]⟩
abbrev S256 : Shape := ⟨1, ![256]⟩
abbrev S4 : Shape := ⟨1, ![4]⟩

abbrev nBuf : Space → Nat
  | .hbm => 32
  | .vmem => 14
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8192x128, .bf16⟩
  | .hbm, ⟨3, _⟩ => ⟨S4x8192x128, .bf16⟩
  | .hbm, ⟨4, _⟩ => ⟨S4x8192x128, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S4x8192x128, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S4x1x8192, .f32⟩
  | .hbm, ⟨13, _⟩ => ⟨S4x8192x1, .f32⟩
  | .hbm, ⟨14, _⟩ => ⟨S4x1x8192, .f32⟩
  | .hbm, ⟨15, _⟩ => ⟨S4x8192, .f32⟩
  | .hbm, ⟨16, _⟩ => ⟨S4x8192, .f32⟩
  | .hbm, ⟨17, _⟩ => ⟨S_, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x4096x128, .bf16⟩
  | .local _ .vmem, ⟨1, _⟩ => ⟨S1x4096x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x4096x1, .f32⟩
  | .local _ .vmem, ⟨5, _⟩ => ⟨S1x4096x1, .f32⟩
  | .local _ .vmem, ⟨6, _⟩ => ⟨S1x1x256, .f32⟩
  | .local _ .vmem, ⟨7, _⟩ => ⟨S1x1x256, .f32⟩
  | .local _ .vmem, ⟨8, _⟩ => ⟨S1x4096x1, .f32⟩
  | .local _ .vmem, ⟨9, _⟩ => ⟨S1x4096x1, .f32⟩
  | .local _ .vmem, ⟨10, _⟩ => ⟨S1x1x8192, .f32⟩
  | .local _ .vmem, ⟨11, _⟩ => ⟨S1x1x8192, .f32⟩
  | .local _ .vmem, ⟨12, _⟩ => ⟨S4096x1, .f32⟩
  | .local _ .vmem, ⟨13, _⟩ => ⟨S1x8192, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let arg2 : BitVec 32 := BitVec.ofNat 32 (i 2).val
  let c256_i32 : BitVec 32 := 256#32
  let v33 : BitVec 32 := Scalar.muli arg2 c256_i32
  v33
def k0_off1 (i : grid0.Coords) : Fin 2 → Nat :=
  let c0_22 : Index := 0#32
  let arg2 : BitVec 32 := BitVec.ofNat 32 (i 2).val
  let c256_i32 : BitVec 32 := 256#32
  let v33 : BitVec 32 := Scalar.muli arg2 c256_i32
  let v34 : BitVec 32 := v33
  let v35 : Index := Scalar.indexCast v34
  ![0, v35.toNat]
def k0_cond3 (i : grid0.Coords) : BitVec 1 :=
  let arg2 : BitVec 32 := BitVec.ofNat 32 (i 2).val
  let c31_i32 : BitVec 32 := 31#32
  let v42 : BitVec 1 := Scalar.cmpi .eq arg2 c31_i32
  let v43 : BitVec 32 := Scalar.extui v42
  let c0_i32_24 : BitVec 32 := 0#32
  let v44 : BitVec 1 := Scalar.cmpi .ne v43 c0_i32_24
  v44

def k0_cond4 (i : grid0.Coords) : BitVec 1 :=
  let arg1 : BitVec 32 := BitVec.ofNat 32 (i 1).val
  let c1_i32 : BitVec 32 := 1#32
  let v45 : BitVec 1 := Scalar.cmpi .eq arg1 c1_i32
  let arg2 : BitVec 32 := BitVec.ofNat 32 (i 2).val
  let c31_i32_25 : BitVec 32 := 31#32
  let v46 : BitVec 1 := Scalar.cmpi .eq arg2 c31_i32_25
  let v47 : BitVec 1 := Scalar.andi v45 v46
  let v48 : BitVec 32 := Scalar.extui v47
  let c0_i32_26 : BitVec 32 := 0#32
  let v49 : BitVec 1 := Scalar.cmpi .ne v48 c0_i32_26
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bitsLt_bf16_f32 : FTy.bits .bf16 < FTy.bits .f32
  reducesTo_S4x8192x128_S4x8192_d2 : S4x8192x128.ReducesTo [2] S4x8192
  h_S_ : 0 < S_.numel
  bcast_S4x8192_S4x8192x1_0_1 : S4x8192.BroadcastsInDim S4x8192x1 (![0, 1] : Fin 2 → Fin S4x8192x1.rank)
  transposes_S4x8192x1_S4x1x8192_0_2_1 : S4x8192x1.Transposes [0, 2, 1] S4x1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  transposes_S256x128_p1_0_S128x256 : S256x128.Transposes [1, 0] S128x256
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S4096x1_S4096x256 : S4096x1.Broadcasts S4096x256
  broadcasts_S1x256_S4096x256 : S1x256.Broadcasts S4096x256
  reduces_S4096x256_S4096 : S4096x256.Reduces [1] S4096
  shapeCasts_S4096_S4096x1 : S4096.ShapeCasts S4096x1
  reduces_S4096x256_S256 : S4096x256.Reduces [0] S256
  shapeCasts_S256_S1x256 : S256.ShapeCasts S1x256
  h_S1x256 : 0 < S1x256.numel
  shapeCasts_S1x256_S1x256 : S1x256.ShapeCasts S1x256
  shapeCasts_S4096x1_S1x4096x1 : S4096x1.ShapeCasts S1x4096x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  shapeCasts_S4x1x8192_S4x8192 : S4x1x8192.ShapeCasts S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4096x128_S128x256_S4096x256_1_0_0_1_n_n_wf : DotDims.WF S4096x128 S128x256 S4096x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x8192x128.size a
  hwx0_0 : ∀ i : grid0.Coords, EltTy.bits .bf16 = 32 ∨ (Rect.block (s := S4x8192x128) S1x4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S4x8192x128.size a
  hwx0_1 : ∀ i : grid0.Coords, EltTy.bits .bf16 = 32 ∨ (Rect.block (s := S4x8192x128) S1x256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S4x8192x1.size a
  hwx0_2 : ∀ i : grid0.Coords, EltTy.bits .f32 = 32 ∨ (Rect.block (s := S4x8192x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S4x1x8192.size a
  hwx0_3 : ∀ i : grid0.Coords, EltTy.bits .f32 = 32 ∨ (Rect.block (s := S4x1x8192) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x1.size a ≤ S4x8192x1.size a
  hwx0_4 : ∀ i : grid0.Coords, EltTy.bits .f32 = 32 ∨ (Rect.block (s := S4x8192x1) S1x4096x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8192.size a ≤ S4x1x8192.size a
  hwx0_5 : ∀ i : grid0.Coords, EltTy.bits .f32 = 32 ∨ (Rect.block (s := S4x1x8192) S1x1x8192.size (cc0_transform_5 i) (hinb0_5 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1x4096x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x1x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4x8192x128 : Shape := ⟨3, ![4, 8192, 128]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8192x128, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x128, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x128_S4x8192_d2 : S4x8192x128.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x128_S4x8192x128_S4x8192x8192_2_2_1_1_0_0_wf : DotDims.WF S4x8192x128 S4x8192x128 S4x8192x8192 [2] [2] [1] [1] [0] [0]

variable [Facts₀]

def dot_S4x8192x128_S4x8192x128_S4x8192x8192_2_2_1_1_0_0 : DotDims S4x8192x128 S4x8192x128 S4x8192x8192 where
  lhsContracting := [2]
  rhsContracting := [2]
  lhsNonContracting := [1]
  rhsNonContracting := [1]
  lhsBatch := [0]
  rhsBatch := [0]
  wf := dot_S4x8192x128_S4x8192x128_S4x8192x8192_2_2_1_1_0_0_wf

class Facts : Prop extends Facts₀ where

variable [Facts]
-- ==== Proof.Spec.lean ====
/-
  The chamfer distance between two batches of point clouds, as both programs compute it.

  For a batch `b`, a point `n` of the first cloud and a point `m` of the second, the squared distance is
  `|a_n|^2 + |b_m|^2 - 2 <a_n, b_m>`, the two squared norms taken as given arrays (both programs compute them by the same
  host operations, so they are never opened).  The distance of every point to the other cloud is the least such entry
  along a row (`rowMin`), resp. along a column (`colMin`); the result is the mean over the batch of the sum of the two
  clouds' mean distances (`meanOfMeans`), kept as the host operations both programs end with.
-/
import Idealize.ShloMosaic.Lib.ValueIdx
import Idealize.ShloMosaic.PureOps.Ideal.Laws
import Idealize.ShloMosaic.PureOps

noncomputable section

namespace Cert.Chamfer

open Idealize.ShloMosaic Idealize.ShloMosaic.ValueIdx
open scoped BigOperators

/-- Four clouds of 8192 points in 128 dimensions. -/
abbrev SPts : Shape := ⟨3, ![4, 8192, 128]⟩
/-- One number per point. -/
abbrev SRow : Shape := ⟨2, ![4, 8192]⟩
/-- One number per batch. -/
abbrev SBat : Shape := ⟨1, ![4]⟩
/-- One number. -/
abbrev SOne : Shape := ⟨0, ![]⟩

/-- The squared distance between point `n` of the first cloud and point `m` of the second, in batch `b`. -/
def dis (sa sb : SRow.Idx → EReal) (A B : SPts.Idx → EReal) (b : Fin 4) (n m : Fin 8192) : EReal :=
  (sa (ix2 b n) + sb (ix2 b m)) - Ideal.ofBits .f32 0x40000000#32 * ∑ k : Fin 128, A (ix3 b n k) * B (ix3 b m k)

/-- The squared distance from each point of the first cloud to the second cloud. -/
def rowMin (sa sb : SRow.Idx → EReal) (A B : SPts.Idx → EReal) : FVec Ideal SRow .f32 :=
  fun i => (Finset.univ : Finset (Fin 8192)).fold min ⊤ fun m => dis sa sb A B (i 0) (i 1) m

/-- The squared distance from each point of the second cloud to the first cloud. -/
def colMin (sa sb : SRow.Idx → EReal) (A B : SPts.Idx → EReal) : FVec Ideal SRow .f32 :=
  fun i => (Finset.univ : Finset (Fin 8192)).fold min ⊤ fun n => dis sa sb A B (i 0) n (i 1)

/-- The mean over the batch of (mean of the first cloud's distances + mean of the second cloud's distances), as the host
    operations compute it: sums from zero, quotients by 8192 and by 4. -/
def meanOfMeans (h1 : SRow.ReducesTo [1] SBat) (h0 : SBat.ReducesTo [0] SOne) (hb : SOne.BroadcastsInDim SBat ![])
    (hs : 0 < SOne.numel) (r c : FVec Ideal SRow .f32) : FVec Ideal SOne .f32 :=
  Host.divf (F := Ideal)
    (Host.reduceAdd (F := Ideal)
      (addf (F := Ideal)
        (Host.divf (F := Ideal) (Host.reduceAdd (F := Ideal) r (constant (F := Ideal) SOne .f32 0x00000000#32) h1 hs)
          (broadcastInDim SBat ![] hb (constant (F := Ideal) SOne .f32 0x46000000#32)))
        (Host.divf (F := Ideal) (Host.reduceAdd (F := Ideal) c (constant (F := Ideal) SOne .f32 0x00000000#32) h1 hs)
          (broadcastInDim SBat ![] hb (constant (F := Ideal) SOne .f32 0x46000000#32))))
      (constant (F := Ideal) SOne .f32 0x00000000#32) h0 hs)
    (constant (F := Ideal) SOne .f32 0x40800000#32)

end Cert.Chamfer

end
-- ==== Proof.RefValue.lean ====
/-
  The reference, read: its two minimum reductions are the row and column minima of the squared distances.

  The reference forms the whole [4, 8192, 8192] array of squared distances (squared norms broadcast along rows and
  columns, minus twice the batched product of the two clouds) and reduces it with `minimum` from plus infinity along the
  last axis (each first-cloud point's distance) and along the middle axis (each second-cloud point's distance).
-/
import proofs.«146107_j23433341567534_2_alg».proof.Proof.Gen.ReferenceIdeal.Read
import proofs.«146107_j23433341567534_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Chamfer

/-- The word of plus infinity denotes the top element. -/
theorem ofBits_inf : Ideal.ofBits .f32 0x7F800000#32 = (⊤ : EReal) := by simp [Ideal.ofBits, Ideal.ieee]

/-- An entry of the reference's array of squared distances. -/
theorem dis_eq (A B : (⟨S4x8192x128, .f32⟩ : BufTy).Contents (Elt Ideal)) (b : Fin 4) (n m : Fin 8192) :
    val_main_v12 (F := Ideal) A B (ix3 b n m) = dis (val_main_v1 (F := Ideal) A) (val_main_v4 (F := Ideal) B) A B b n m := by
  rw [val_main_v12_apply, val_main_v8_apply, val_main_v11_apply, val_main_v6_apply, val_main_v7_apply, val_main_v10_apply,
    val_main_v9_apply, val_main_v2_apply, val_main_v5_apply, val_main_cst_1_apply]
  have e1 : idx_main_v2 (idx_main_v6 (ix3 b n m)) = ix2 b n :=
    funext fun a => Fin.ext (by match a with | ⟨0, _⟩ => rfl | ⟨1, _⟩ => rfl)
  have e2 : idx_main_v5 (idx_main_v7 (ix3 b n m)) = ix2 b m :=
    funext fun a => Fin.ext (by match a with | ⟨0, _⟩ => rfl | ⟨1, _⟩ => rfl)
  have e3 : ∀ k : Fin 128, lidx_main_v9 (ix3 b n m) k = ix3 b n k := fun k =>
    funext fun a => Fin.ext (by match a with | ⟨0, _⟩ => rfl | ⟨1, _⟩ => rfl | ⟨2, _⟩ => rfl)
  have e4 : ∀ k : Fin 128, ridx_main_v9 (ix3 b n m) k = ix3 b m k := fun k =>
    funext fun a => Fin.ext (by match a with | ⟨0, _⟩ => rfl | ⟨1, _⟩ => rfl | ⟨2, _⟩ => rfl)
  simp only [e1, e2, e3, e4]
  rfl

/-- The index over (b, n) with the last coordinate put back. -/
theorem lift_last (h : S4x8192x8192.Reduces [2] S4x8192) (b : Fin 4) (n m : Fin 8192) :
    h.lift (ix2 b n) m = ix3 b n m :=
  funext fun a => by match a with | ⟨0, _⟩ => rfl | ⟨1, _⟩ => rfl | ⟨2, _⟩ => rfl

/-- The index over (b, m) with the middle coordinate put back. -/
theorem lift_mid (h : S4x8192x8192.Reduces [1] S4x8192) (b : Fin 4) (m n : Fin 8192) :
    h.lift (ix2 b m) n = ix3 b n m :=
  funext fun a => by match a with | ⟨0, _⟩ => rfl | ⟨1, _⟩ => rfl | ⟨2, _⟩ => rfl

/-- The reduction along the last axis: each first-cloud point's least squared distance. -/
theorem v13_eq (A B : (⟨S4x8192x128, .f32⟩ : BufTy).Contents (Elt Ideal)) :
    val_main_v13 (F := Ideal) A B = rowMin (val_main_v1 (F := Ideal) A) (val_main_v4 (F := Ideal) B) A B := by
  funext i
  obtain ⟨b, n, rfl⟩ : ∃ (b : Fin 4) (n : Fin 8192), i = ix2 b n := ⟨i 0, i 1, eq_ix2 i⟩
  have h : S4x8192x8192.Reduces [2] S4x8192 := by decide
  unfold val_main_v13 rowMin
  rw [Host.reduce_eq_fold_single FloatOps.minimumf _ _ reducesTo_S4x8192x8192_S4x8192_d2 h h_S_]
  have hf : (val_main_v12 (F := Ideal) A B ∘ h.lift (ix2 b n))
      = fun m : Fin 8192 => dis (val_main_v1 (F := Ideal) A) (val_main_v4 (F := Ideal) B) A B b n m :=
    funext fun m => (congrArg (val_main_v12 (F := Ideal) A B) (lift_last h b n m)).trans (dis_eq A B b n m)
  show Finset.fold min (Ideal.ofBits .f32 0x7F800000#32) (val_main_v12 (F := Ideal) A B ∘ h.lift (ix2 b n)) (Finset.univ : Finset (Fin 8192)) = _
  rw [hf, ofBits_inf]
  rfl

/-- The reduction along the middle axis: each second-cloud point's least squared distance. -/
theorem v14_eq (A B : (⟨S4x8192x128, .f32⟩ : BufTy).Contents (Elt Ideal)) :
    val_main_v14 (F := Ideal) A B = colMin (val_main_v1 (F := Ideal) A) (val_main_v4 (F := Ideal) B) A B := by
  funext i
  obtain ⟨b, m, rfl⟩ : ∃ (b : Fin 4) (m : Fin 8192), i = ix2 b m := ⟨i 0, i 1, eq_ix2 i⟩
  have h : S4x8192x8192.Reduces [1] S4x8192 := by decide
  unfold val_main_v14 colMin
  rw [Host.reduce_eq_fold_single FloatOps.minimumf _ _ reducesTo_S4x8192x8192_S4x8192_d1 h h_S_]
  have hf : (val_main_v12 (F := Ideal) A B ∘ h.lift (ix2 b m))
      = fun n : Fin 8192 => dis (val_main_v1 (F := Ideal) A) (val_main_v4 (F := Ideal) B) A B b n m :=
    funext fun n => (congrArg (val_main_v12 (F := Ideal) A B) (lift_mid h b m n)).trans (dis_eq A B b n m)
  show Finset.fold min (Ideal.ofBits .f32 0x7F800000#32) (val_main_v12 (F := Ideal) A B ∘ h.lift (ix2 b m)) (Finset.univ : Finset (Fin 8192)) = _
  rw [hf, ofBits_inf]
  rfl

/-- The reference's result: the mean of means of the two minima. -/
theorem result_eq (A B : (⟨S4x8192x128, .f32⟩ : BufTy).Contents (Elt Ideal)) :
    val_main_v23 (F := Ideal) A B
      = meanOfMeans reducesTo_S4x8192_S4_d1 reducesTo_S4_S_d0 bcast_S_S4 h_S_
          (rowMin (val_main_v1 (F := Ideal) A) (val_main_v4 (F := Ideal) B) A B)
          (colMin (val_main_v1 (F := Ideal) A) (val_main_v4 (F := Ideal) B) A B) := by
  rw [← v13_eq, ← v14_eq]
  rfl

end Cert.ReferenceIdeal.RefValue

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«146107_j23433341567534_2_alg».proof.Proof.LibPlainDot
import proofs.«146107_j23433341567534_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibLaneMin.lean ====
/-
  The least entry along the lanes of a matrix, read at an index.

  A float `minimumf` reduction of an `[a, b]` matrix along its lanes (axis 1) is a vector of length `a` whose entry
  `p` is, at the exact values, the fold of `min` over the lane coordinate `c` of the matrix's entry `(p, c)`,
  started from the value of the accumulator's word (the word of +∞ for a row minimum): the reduced index with the lane
  coordinate put back is `(p, c)`.  It is the `min` twin of the lane sum and lane maximum read at an index.
-/
import Idealize.ShloMosaic.Lib.ValueIdx
import Idealize.ShloMosaic.PureOps.Ideal.Laws

noncomputable section

namespace Cert.LibLaneMin

open Idealize.ShloMosaic Idealize.ShloMosaic.ValueIdx

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A least entry along the lanes of an `[a, b]` matrix is, at row `p`, the fold of `min` from the accumulator's
    value over the lane coordinate. -/
theorem multiReduction_minimumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun c => src (ix2 p c)) := by
  rw [multiReduction_minimumf_eq_fold]
  refine (h.fold_filter_drop_single _ _ src (ix1 p)).trans ?_
  have e : (src ∘ h.lift (ix1 p)) = fun c : Fin b => src (ix2 p c) :=
    funext fun c => congrArg src (lift_ix1 h p c)
  show (Finset.univ : Finset (Fin b)).fold min (Ideal.ofBits φ acc) (src ∘ h.lift (ix1 p)) = _
  rw [e]
  rfl

end Cert.LibLaneMin

end
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.LibAxisFolds.lean ====
/-
  Reductions of a matrix along one axis, and total sums, read at an index; and the minimum of finitely many real numbers.

  For an `[a, b]` matrix at the exact values: the float sum along axis 1 is, at row `p`, the sum over the column
  coordinate; the float minimum along axis 0 is, at column `q`, the fold of `min` from the accumulator's value over the
  row coordinate (the index with the reduced coordinate put back is `(p, q)` in both cases).  A sum over every index of a
  `[1, a, b]` array is the double sum over its last two coordinates.  A minimum folded from plus infinity over a nonempty
  finite family of real numbers is a real number: what a softmin's shift needs, since the softmin does not depend on
  which real number the shift is.
-/
import proofs.«146107_j23433341567534_2_alg».proof.Proof.LibReal
import Idealize.ShloMosaic.Lib.ValueIdx
import Idealize.ShloMosaic.PureOps.Ideal.Laws
import Idealize.ShloMosaic.PureOps.Reduce

noncomputable section

namespace Cert.LibAxisFolds

open Idealize.ShloMosaic Idealize.ShloMosaic.ValueIdx
open scoped BigOperators

/-- The source index over row `p` with column `q` inserted is `(p, q)`. -/
theorem lift_row {a b : ℕ} (h : (⟨2, ![a, b]⟩ : Shape).Reduces [1] ⟨1, ![a]⟩) (p : Fin a) (q : Fin b) :
    h.lift (ix1 p) q = ix2 p q := by
  funext ax
  match ax with
  | ⟨0, _⟩ => rfl
  | ⟨1, _⟩ => rfl

/-- The source index over column `q` with row `p` inserted is `(p, q)`. -/
theorem lift_col {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum along the rows' entries (axis 1) of an `[a, b]` matrix is, at row `p`, the sum over the column coordinate. -/
theorem multiReduction_add_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) :=
  (Ideal.multiReduction_add_single src acc h hφ hacc (ix1 p)).trans
    (Finset.sum_congr rfl fun q _ => congrArg src (lift_row h p q))

/-- A float minimum over the rows (axis 0) of an `[a, b]` matrix is, at column `q`, the fold of `min` from the
    accumulator's value over the row coordinate. -/
theorem multiReduction_min_rows_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.minimumf.neutral .f32 hφ)
    (q : Fin b) :
    multiReduction .minimumf [0] ⟨1, ![b]⟩ src acc h hφ hacc (ix1 q)
      = (Finset.univ : Finset (Fin a)).fold min (Ideal.ofBits .f32 acc) (fun p => src (ix2 p q)) := by
  rw [multiReduction_minimumf_eq_fold, h.fold_filter_drop_single]
  show Finset.fold min (Ideal.ofBits .f32 acc) (src ∘ h.lift (ix1 q)) Finset.univ = _
  congr 1
  funext p
  exact congrArg src (lift_col h q p)

/-- An index of a rank-3 shape is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a `[1, a, b]` shape is the double sum over the last two coordinates. -/
theorem sum_idx3_unit {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquiv3 (n0 := 1) (n1 := a) (n2 := b)).symm f, Fintype.sum_prod_type, Fin.sum_univ_one,
    Fintype.sum_prod_type]
  rfl

open Cert.LibReal in
/-- A minimum folded from plus infinity over a nonempty family of real numbers is a real number. -/
theorem isReal_fold_min {ι : Type*} (s : Finset ι) (hs : s.Nonempty) (l : ι → EReal) (h : ∀ j ∈ s, IsReal (l j)) :
    IsReal (s.fold min ⊤ l) := by
  classical
  have hmin : ∀ {a b : EReal}, IsReal a → IsReal b → IsReal (min a b) := by
    intro a b ha hb
    obtain ⟨x, rfl⟩ := ha; obtain ⟨y, rfl⟩ := hb
    exact ⟨Min.min x y, (EReal.coe_strictMono.monotone.map_min).symm⟩
  induction hs using Finset.Nonempty.cons_induction with
  | singleton a =>
    rw [Finset.fold_singleton, min_top_right]
    exact h a (Finset.mem_singleton_self a)
  | cons a s ha hs ih =>
    rw [Finset.fold_cons]
    exact hmin (h a (Finset.mem_cons_self a s)) (ih fun j hj => h j (Finset.mem_cons_of_mem hj))

end Cert.LibAxisFolds

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.TileValue.lean ====
/-
  One tile of the kernel's arithmetic, read entry by entry at the exact values.

  A grid point sees 4096 rows of the first point cloud (a [1,4096,128] block), 256 rows of the second (a [1,256,128]
  block), the squared norms of those rows (a [1,4096,1] column and a [1,1,256] row) and computes the 4096 x 256 tile
  of squared distances  |x_p|^2 + |y_q|^2 - 2 <x_p, y_q> : the inner products by one matrix product into a zero
  accumulator against the transposed second block.  The running row minimum is then the least of the old accumulator
  and the tile's least entry along each row; the running column minimum likewise along each column.
-/
import proofs.«146107_j23433341567534_2_alg».proof.Proof.Gen.KernelIdeal.Skeleton
import proofs.«146107_j23433341567534_2_alg».proof.Proof.LibZeroAccDots
import proofs.«146107_j23433341567534_2_alg».proof.Proof.LibLaneMin
import proofs.«146107_j23433341567534_2_alg».proof.Proof.LibAxisFolds
import proofs.«146107_j23433341567534_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-- The squared distance between row `p` of the first block and row `q` of the second, from the blocks and their
    squared norms. -/
def tileDis (x : Vec Ideal S1x4096x128 .bf16) (y : Vec Ideal S1x256x128 .bf16) (sx : Vec Ideal S1x4096x1 .f32)
    (sy : Vec Ideal S1x1x256 .f32) (p : Fin 4096) (q : Fin 256) : EReal :=
  (sx (ix3 (0 : Fin 1) p (0 : Fin 1)) + sy (ix3 (0 : Fin 1) (0 : Fin 1) q))
    - Ideal.ofBits .f32 0x40000000#32 * ∑ k : Fin 128, x (ix3 (0 : Fin 1) p k) * y (ix3 (0 : Fin 1) q k)

/-- The word of plus infinity denotes the top element. -/
theorem ofBits_inf : Ideal.ofBits .f32 0x7F800000#32 = (⊤ : EReal) := by simp [Ideal.ofBits, Ideal.ieee]

/-- The tile the body computes is the tile of squared distances. -/
theorem pay6_apply (x : Vec Ideal S1x4096x128 .bf16) (y : Vec Ideal S1x256x128 .bf16) (sx : Vec Ideal S1x4096x1 .f32)
    (sy : Vec Ideal S1x1x256 .f32) (p : Fin 4096) (q : Fin 256) :
    k0_pay6 (F := Ideal) x y sx sy (ix2 p q) = tileDis x y sx sy p q := by
  unfold k0_pay6 tileDis
  simp only [subf_apply, addf_apply, mulf_apply, broadcast_apply]
  rw [Cert.ColumnLayout.broadcastTo_a1_ab_apply, broadcastTo_1b_ab_apply, shapeCast_1ab_ab_apply, shapeCast_1ab_ab_apply]
  refine congrArg (fun s => (sx (ix3 (0 : Fin 1) p (0 : Fin 1)) + sy (ix3 (0 : Fin 1) (0 : Fin 1) q))
    - Ideal.ofBits .f32 0x40000000#32 * s) ?_
  refine (Cert.ZeroAccDots.rows_columns (A := 4096) (K := 128) (B := 256) dot_S4096x128_S128x256_S4096x256_1_0_0_1_n_n
    rfl rfl rfl rfl rfl rfl rfl rfl none _ _ p q).trans ?_
  refine Finset.sum_congr rfl fun k _ => ?_
  rw [transpose_ix2_apply, shapeCast_1ab_ab_apply, shapeCast_1ab_ab_apply]

/-- The row accumulator after the body: the least of its old entry and the tile's row. -/
theorem pay7_apply (x : Vec Ideal S1x4096x128 .bf16) (y : Vec Ideal S1x256x128 .bf16) (sx : Vec Ideal S1x4096x1 .f32)
    (sy : Vec Ideal S1x1x256 .f32) (acc : Vec Ideal S4096x1 .f32) (p : Fin 4096) (u : Fin 1) :
    k0_pay7 (F := Ideal) x y sx sy acc (ix2 p u)
      = min (acc (ix2 p u)) ((Finset.univ : Finset (Fin 256)).fold min ⊤ fun q => tileDis x y sx sy p q) := by
  unfold k0_pay7
  rw [shapeCast_self]
  simp only [minimumf_apply]
  refine congrArg (min (acc (ix2 p u))) ?_
  refine (Cert.ColumnLayout.shapeCast_a_a1_apply _ _ p u).trans ?_
  refine (Cert.LibLaneMin.multiReduction_minimumf_lanes_apply (a := 4096) (b := 256) (k0_pay6 (F := Ideal) x y sx sy)
    0x7F800000#32 reduces_S4096x256_S4096 (.inl rfl) rfl p).trans ?_
  rw [ofBits_inf]
  exact congrArg (fun f => (Finset.univ : Finset (Fin 256)).fold min ⊤ f) (funext fun q => pay6_apply x y sx sy p q)

/-- The column accumulator's block after the body: the least of its old entry and the tile's column. -/
theorem pay1_apply (T : FVec Ideal S4096x256 .f32) (acc : Vec Ideal S1x256 .f32) (u : Fin 1) (q : Fin 256) :
    k0_pay1 (F := Ideal) T acc (ix2 u q)
      = min (acc (ix2 u q)) ((Finset.univ : Finset (Fin 4096)).fold min ⊤ fun p => T (ix2 p q)) := by
  unfold k0_pay1
  rw [shapeCast_self]
  simp only [minimumf_apply]
  refine congrArg (min (acc (ix2 u q))) ?_
  refine (shapeCast_a_1a_apply _ _ u q).trans ?_
  refine (Cert.LibAxisFolds.multiReduction_min_rows_apply (a := 4096) (b := 256) T 0x7F800000#32 reduces_S4096x256_S256
    (.inl rfl) rfl q).trans ?_
  rw [ofBits_inf]

/-- The reset value of the column accumulator: plus infinity everywhere. -/
theorem pay4_apply (i : S1x8192.Idx) : k0_pay4 (F := Ideal) i = (⊤ : EReal) := by
  unfold k0_pay4
  rw [shapeCast_self]
  exact ofBits_inf

/-- The reset value of the row accumulator: plus infinity everywhere. -/
theorem pay5_apply (i : S4096x1.Idx) : k0_pay5 (F := Ideal) i = (⊤ : EReal) := by
  unfold k0_pay5
  rw [shapeCast_self]
  exact ofBits_inf

end Cert.KernelIdeal.Tile

end
-- ==== Proof.Blocks.lean ====
/-
  The tile a grid point sees, in terms of the two point clouds.

  Grid point `t` (batch `t / 64`, row tile `(t / 32) % 2`, column tile `t % 32`) reads rows
  `4096 * rowTile + p` of the first cloud and rows `256 * colTile + q` of the second, with their squared norms, through
  its four input windows; the clouds are staged as bf16 copies, which at the exact values are the clouds themselves, and
  the second cloud's squared norms as a transposed [4, 1, 8192] array.  So the tile's entry `(p, q)` is the squared
  distance `dis` between those two points.
-/
import proofs.«146107_j23433341567534_2_alg».proof.Proof.Gen.KernelIdeal.Frame
import proofs.«146107_j23433341567534_2_alg».proof.Proof.TileValue
import proofs.«146107_j23433341567534_2_alg».proof.Proof.Spec
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Tile Cert.Chamfer
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The first cloud, as launched. -/
abbrev cloudA : FVec Ideal S4x8192x128 .f32 := m ((c.tc : Thread nD τ).loc main_arg0)
/-- The second cloud, as launched. -/
abbrev cloudB : FVec Ideal S4x8192x128 .f32 := m ((c.tc : Thread nD τ).loc main_arg1)

/-- The squared norms of a cloud's points, as the host computes them. -/
def sqNorm (X : FVec Ideal S4x8192x128 .f32) : FVec Ideal S4x8192 .f32 :=
  Host.reduceAdd (F := Ideal) (mulf X X) (constant (F := Ideal) S_ .f32 0x00000000#32) reducesTo_S4x8192x128_S4x8192_d2 h_S_

/-- The staged bf16 copy of the first cloud. -/
theorem V_v0 : (V m c main_v0 : S4x8192x128.Idx → Ideal .bf16) = truncf .bf16 (cloudA m c) bitsLt_bf16_f32 := by
  show StableHlo.after hostOps0 (fun b => m (c, b)) (Proc.devRef .tc main_v0) = _
  after_results

/-- The staged bf16 copy of the second cloud. -/
theorem V_v1 : (V m c main_v1 : S4x8192x128.Idx → Ideal .bf16) = truncf .bf16 (cloudB m c) bitsLt_bf16_f32 := by
  show StableHlo.after hostOps0 (fun b => m (c, b)) (Proc.devRef .tc main_v1) = _
  after_results

/-- The first cloud's squared norms, as a column per batch. -/
theorem V_v4 : (V m c main_v4 : S4x8192x1.Idx → Ideal .f32)
    = broadcastInDim S4x8192x1 ![0, 1] bcast_S4x8192_S4x8192x1_0_1 (sqNorm (cloudA m c)) := by
  show StableHlo.after hostOps0 (fun b => m (c, b)) (Proc.devRef .tc main_v4) = _
  after_results
  rfl

/-- The second cloud's squared norms, as a row per batch. -/
theorem V_v8 : (V m c main_v8 : S4x1x8192.Idx → Ideal .f32)
    = transpose S4x1x8192 [0, 2, 1] (broadcastInDim S4x8192x1 ![0, 1] bcast_S4x8192_S4x8192x1_0_1 (sqNorm (cloudB m c)))
        transposes_S4x8192x1_S4x1x8192_0_2_1 := by
  show StableHlo.after hostOps0 (fun b => m (c, b)) (Proc.devRef .tc main_v8) = _
  after_results
  rfl

/-- A squared norm broadcast to a column, read at an index. -/
theorem bcast_col_apply (s : FVec Ideal S4x8192 .f32) (b : Fin 4) (n : Fin 8192) (u : Fin 1) :
    broadcastInDim S4x8192x1 ![0, 1] bcast_S4x8192_S4x8192x1_0_1 s (ix3 b n u) = s (ix2 b n) :=
  broadcastInDim_apply _ bcast_S4x8192_S4x8192x1_0_1 s (ix3 b n u) (ix2 b n) (fun a => match a with
    | ⟨0, _⟩ => by show b.val = if (4 : Nat) = 1 then 0 else b.val; rw [if_neg (by decide)]
    | ⟨1, _⟩ => by show n.val = if (8192 : Nat) = 1 then 0 else n.val; rw [if_neg (by decide)])

/-- Where each window's block sits, by grid point. -/
theorem idx_facts : ∀ t : Fin cfg0.N,
    (win0_0.index t (0 : Fin 3) = t.val / 64 ∧ win0_0.index t (1 : Fin 3) = t.val / 32 % 2 ∧ win0_0.index t (2 : Fin 3) = 0)
    ∧ (win0_1.index t (0 : Fin 3) = t.val / 64 ∧ win0_1.index t (1 : Fin 3) = t.val % 32 ∧ win0_1.index t (2 : Fin 3) = 0)
    ∧ (win0_2.index t (0 : Fin 3) = t.val / 64 ∧ win0_2.index t (1 : Fin 3) = t.val / 32 % 2 ∧ win0_2.index t (2 : Fin 3) = 0)
    ∧ (win0_3.index t (0 : Fin 3) = t.val / 64 ∧ win0_3.index t (1 : Fin 3) = 0 ∧ win0_3.index t (2 : Fin 3) = t.val % 32)
    ∧ (win0_4.index t (0 : Fin 3) = t.val / 64 ∧ win0_4.index t (1 : Fin 3) = t.val / 32 % 2 ∧ win0_4.index t (2 : Fin 3) = 0)
    ∧ (win0_5.index t (0 : Fin 3) = t.val / 64 ∧ win0_5.index t (1 : Fin 3) = 0 ∧ win0_5.index t (2 : Fin 3) = 0) :=
  (by decide +kernel : ∀ t : Fin grid0.N, _)

/-- The grid point's column-tile coordinate. -/
theorem coord2 : ∀ t : Fin cfg0.N, (grid0.coords t 2).val = t.val % 32 :=
  (by decide +kernel : ∀ t : Fin grid0.N, _)

/-- The tile a grid point computes is the block of squared distances at its row and column tiles. -/
theorem tile_eq (t : Fin cfg0.N) (p : Fin 4096) (q : Fin 256) (b : Fin 4) (n k : Fin 8192)
    (hb : b.val = t.val / 64) (hn : n.val = 4096 * (t.val / 32 % 2) + p.val) (hk : k.val = 256 * (t.val % 32) + q.val) :
    tileDis (iblk m c 0 t) (iblk m c 1 t) (iblk m c 2 t) (iblk m c 3 t) p q
      = dis (sqNorm (cloudA m c)) (sqNorm (cloudB m c)) (cloudA m c) (cloudB m c) b n k := by
  obtain ⟨⟨a0, a1, a2⟩, ⟨b0, b1, b2⟩, ⟨c0, c1, c2⟩, ⟨d0, d1, d2⟩, -, -⟩ := idx_facts t
  have e0 : ∀ j : Fin 128, iblk m c 0 t (ix3 (0 : Fin 1) p j) = cloudA m c (ix3 b n j) := fun j => by
    unfold iblk
    rw [View.read_apply]
    show V m c main_v0 (((cfg0.win 0).blk t).view.emb (ix3 (0 : Fin 1) p j)) = _
    rw [V_v0]
    refine congrArg (cloudA m c) (funext fun a => Fin.ext ?_)
    match a with
    | ⟨0, _⟩ => show win0_0.index t (0 : Fin 3) * 1 + 1 * 0 = b.val; omega
    | ⟨1, _⟩ => show win0_0.index t (1 : Fin 3) * 4096 + 1 * p.val = n.val; omega
    | ⟨2, _⟩ => show win0_0.index t (2 : Fin 3) * 128 + 1 * j.val = j.val; omega
  have e1 : ∀ j : Fin 128, iblk m c 1 t (ix3 (0 : Fin 1) q j) = cloudB m c (ix3 b k j) := fun j => by
    unfold iblk
    rw [View.read_apply]
    show V m c main_v1 (((cfg0.win 1).blk t).view.emb (ix3 (0 : Fin 1) q j)) = _
    rw [V_v1]
    refine congrArg (cloudB m c) (funext fun a => Fin.ext ?_)
    match a with
    | ⟨0, _⟩ => show win0_1.index t (0 : Fin 3) * 1 + 1 * 0 = b.val; omega
    | ⟨1, _⟩ => show win0_1.index t (1 : Fin 3) * 256 + 1 * q.val = k.val; omega
    | ⟨2, _⟩ => show win0_1.index t (2 : Fin 3) * 128 + 1 * j.val = j.val; omega
  have e2 : iblk m c 2 t (ix3 (0 : Fin 1) p (0 : Fin 1)) = sqNorm (cloudA m c) (ix2 b n) := by
    unfold iblk
    rw [View.read_apply]
    show V m c main_v4 (((cfg0.win 2).blk t).view.emb (ix3 (0 : Fin 1) p (0 : Fin 1))) = _
    rw [V_v4]
    refine Eq.trans (congrArg _ (funext fun a => Fin.ext ?_)) (bcast_col_apply (sqNorm (cloudA m c)) b n (0 : Fin 1))
    match a with
    | ⟨0, _⟩ => show win0_2.index t (0 : Fin 3) * 1 + 1 * 0 = b.val; omega
    | ⟨1, _⟩ => show win0_2.index t (1 : Fin 3) * 4096 + 1 * p.val = n.val; omega
    | ⟨2, _⟩ => show win0_2.index t (2 : Fin 3) * 1 + 1 * 0 = 0; omega
  have e3 : iblk m c 3 t (ix3 (0 : Fin 1) (0 : Fin 1) q) = sqNorm (cloudB m c) (ix2 b k) := by
    unfold iblk
    rw [View.read_apply]
    show V m c main_v8 (((cfg0.win 3).blk t).view.emb (ix3 (0 : Fin 1) (0 : Fin 1) q)) = _
    rw [V_v8]
    refine Eq.trans (congrArg _ (funext fun a => Fin.ext ?_))
      ((transpose_ix3_021_apply _ transposes_S4x8192x1_S4x1x8192_0_2_1 b (0 : Fin 1) k).trans
        (bcast_col_apply (sqNorm (cloudB m c)) b k (0 : Fin 1)))
    match a with
    | ⟨0, _⟩ => show win0_3.index t (0 : Fin 3) * 1 + 1 * 0 = b.val; omega
    | ⟨1, _⟩ => show win0_3.index t (1 : Fin 3) * 1 + 1 * 0 = 0; omega
    | ⟨2, _⟩ => show win0_3.index t (2 : Fin 3) * 256 + 1 * q.val = k.val; omega
  unfold tileDis dis
  rw [e2, e3]
  exact congrArg (fun s => (sqNorm (cloudA m c) (ix2 b n) + sqNorm (cloudB m c) (ix2 b k)) - Ideal.ofBits .f32 0x40000000#32 * s)
    (Finset.sum_congr rfl fun j _ => by rw [e0 j, e1 j])

end Cert.KernelIdeal.Blocks

end
-- ==== Proof.LibUnitLoad.lean ====
/-
  A load through a unit-stride rectangle, read at an index.

  A load through the rectangle of sizes `size` at offsets `off` reads, at position `x` of the rectangle, the buffer's
  element at the index `off + x`; the offsets may be given through an equation `off = off'` (a rectangle whose offsets
  the kernel computes is read through their closed form).  With the whole-buffer memref's `read_unread` this reads a
  window of a scratch buffer whose contents are known.
-/
import Idealize.ShloMosaic.Lib.WritesUnit
import Idealize.ShloMosaic.Lib.Pipeline.Value

namespace Cert.LibUnitLoad

open Idealize.ShloMosaic

variable {sig : RefSig} {κ : Kind} {sp : Space} {s : Shape} {e : EltTy} {Val : EltTy → Type}

/-- The element a load through a unit-stride rectangle reads at position `x`: the view's element at `off' + x`. -/
theorem readAt_unit_apply (v : View sig κ sp s e) (f : v.ty.Contents Val) {off off' size : Fin s.rank → ℕ}
    (inb : ∀ a, off a + size a ≤ s.size a) (x : (Rect.unit off size inb).shape.Idx) (y : s.Idx) (heq : off = off')
    (hy : ∀ a, (y a).val = off' a + (x a).val) :
    v.readAt Val (Rect.unit off size inb).toLoadRect f x = v.read Val f y := by
  subst heq
  rw [View.readAt_apply]
  refine congrArg (v.read Val f) (funext fun a => Fin.ext ?_)
  show off a + 1 * (x a).val = (y a).val
  rw [hy a, Nat.one_mul]

/-- The same for a plain array read through a rectangle (`View.ld`). -/
theorem ld_unit_apply (X : s.Idx → Val e) {off off' size : Fin s.rank → ℕ}
    (inb : ∀ a, off a + size a ≤ s.size a) (x : (Rect.unit off size inb).shape.Idx) (y : s.Idx) (heq : off = off')
    (hy : ∀ a, (y a).val = off' a + (x a).val) :
    View.ld X (Rect.unit off size inb) x = X y := by
  subst heq
  refine congrArg X (funext fun a => Fin.ext ?_)
  show off a + 1 * (x a).val = (y a).val
  rw [hy a, Nat.one_mul]

end Cert.LibUnitLoad
-- ==== Proof.Pieces.lean ====
/-
  What each control case of the kernel's body leaves in the two accumulators and the two outputs, as functions.

  The body keeps two running minima in scratch memory: a column of 4096 row minima (`rowNext`: the least of the old
  entry and the tile's least entry along the row) and a row of 8192 column minima, of which a grid point updates only
  the 256 columns of its tile (`colNext`: inside the tile's columns the least of the old entry and the tile's least
  entry along the column, elsewhere the old entry).  The five control cases differ only in whether an accumulator is
  first reset to plus infinity and in whether an accumulator is copied to its output block.
-/
import proofs.«146107_j23433341567534_2_alg».proof.Proof.Gen.KernelIdeal.Frame
import proofs.«146107_j23433341567534_2_alg».proof.Proof.TileValue
import proofs.«146107_j23433341567534_2_alg».proof.Proof.LibUnitLoad
import Idealize.ShloMosaic.Lib.WritesUnit
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Tile
open Idealize.ShloMosaic Idealize.ShloMosaic.TcCoe Idealize.ShloMosaic.Tactic Idealize.ShloMosaic.ValueIdx Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The row accumulator after a grid point's body, from its contents before. -/
def rowNext (x0 : Vec Ideal S1x4096x128 .bf16) (x1 : Vec Ideal S1x256x128 .bf16) (x2 : Vec Ideal S1x4096x1 .f32)
    (x3 : Vec Ideal S1x1x256 .f32) (acc : Vec Ideal S4096x1 .f32) : Vec Ideal S4096x1 .f32 :=
  k0_pay7 (F := Ideal) x0 x1 x2 x3 acc

/-- The column accumulator after the body of a grid point whose tile starts at column `256 * mi`. -/
def colNext (x0 : Vec Ideal S1x4096x128 .bf16) (x1 : Vec Ideal S1x256x128 .bf16) (x2 : Vec Ideal S1x4096x1 .f32)
    (x3 : Vec Ideal S1x1x256 .f32) (mi : ℕ) (acc : Vec Ideal S1x8192 .f32) : Vec Ideal S1x8192 .f32 :=
  fun y => if h : 256 * mi ≤ (y 1).val ∧ (y 1).val < 256 * mi + 256 then
      min (acc y) ((Finset.univ : Finset (Fin 4096)).fold min ⊤ fun p =>
        tileDis x0 x1 x2 x3 p ⟨(y 1).val - 256 * mi, by omega⟩)
    else acc y

/-- All plus infinity: an accumulator just reset. -/
def allTop {S : Shape} : Vec Ideal S .f32 := fun _ => (⊤ : EReal)

theorem pay5_eq : k0_pay5 (F := Ideal) = allTop := funext pay5_apply
theorem pay4_eq : k0_pay4 (F := Ideal) = allTop := funext pay4_apply

/-- A store of a 256-column block into the column accumulator holding `base`, read back whole. -/
theorem colStore (v : View sig .tc .vmem S1x8192 .f32) (f : v.ty.Contents (Elt Ideal)) (base : Vec Ideal S1x8192 .f32)
    (hbase : v.read (Elt Ideal) f = base) (i : grid0.Coords)
    (x0 : Vec Ideal S1x4096x128 .bf16) (x1 : Vec Ideal S1x256x128 .bf16) (x2 : Vec Ideal S1x4096x1 .f32)
    (x3 : Vec Ideal S1x1x256 .f32) (old : Vec Ideal S1x256 .f32)
    (hold : ∀ (u : Fin 1) (q : Fin 256) (m : Fin 8192), m.val = 256 * (i 2).val + q.val → old (ix2 u q) = base (ix2 u m)) :
    v.read (Elt Ideal) (v.writes (Elt Ideal) f
      [⟨Rect.unit (s := S1x8192) (k0_off1 i) S1x256.size (k0_off1_inb i), k0_pay1 (F := Ideal) (k0_pay6 (F := Ideal) x0 x1 x2 x3) old⟩])
      = colNext x0 x1 x2 x3 (i 2).val base := by
  funext y
  obtain ⟨u, m, rfl⟩ : ∃ (u : Fin 1) (m : Fin 8192), y = ix2 u m := ⟨y 0, y 1, eq_ix2 y⟩
  unfold colNext
  by_cases h : 256 * (i 2).val ≤ m.val ∧ m.val < 256 * (i 2).val + 256
  · rw [dif_pos h]
    refine (View.read_writes_cons_unit_of_mem v f (k0_off1_inb i) _ [] (ix2 u m)
      (ix2 u (⟨m.val - 256 * (i 2).val, by omega⟩ : Fin 256)) (k0_off1_eq i) (fun a => by
        match a with
        | ⟨0, _⟩ => show u.val = 0 + u.val; omega
        | ⟨1, _⟩ => show m.val = 256 * (i 2).val + (m.val - 256 * (i 2).val); omega)).trans ?_
    refine (pay1_apply _ old u _).trans ?_
    rw [hold u _ m (by show m.val = 256 * (i 2).val + (m.val - 256 * (i 2).val); omega)]
    exact congrArg (fun g => min (base (ix2 u m)) ((Finset.univ : Finset (Fin 4096)).fold min ⊤ g))
      (funext fun p => pay6_apply x0 x1 x2 x3 p _)
  · rw [dif_neg h]
    refine (View.read_writes_cons_unit_of_not_mem v f (k0_off1_inb i) _ [] (ix2 u m) (k0_off1_eq i) 1 (by
      show m.val < 256 * (i 2).val ∨ 256 * (i 2).val + 256 ≤ m.val; omega)).trans ?_
    rw [View.writes_nil, hbase]

/-- A store through the whole-buffer rectangle, newest, leaves its payload. -/
theorem read_writes_cons_whole {κ : Kind} {sp : Space} {s : Shape} {e : EltTy} (v : View sig κ sp s e) (f : v.ty.Contents (Elt Ideal))
    {off : Fin s.rank → ℕ} (hz : off = fun _ => 0) (inb : ∀ a, off a + s.size a ≤ s.size a) (w : s.Idx → Elt Ideal e)
    (L : List (View.Piece (Elt Ideal) s e)) :
    v.read (Elt Ideal) (v.writes (Elt Ideal) f ((⟨Rect.unit off s.size inb, w⟩ : View.Piece (Elt Ideal) s e) :: L)) = w :=
  funext fun y => View.read_writes_cons_unit_of_mem v f inb w L y y hz fun a => (Nat.zero_add _).symm

/-- Case A: the row accumulator, reset first. -/
theorem row_A (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : cond0_0 i) (hc1 : cond0_1 i) (hc2 : ¬cond0_2 i) (hc3 : ¬cond0_3 i)
    (x0 : Vec Ideal S1x4096x128 .bf16) (x1 : Vec Ideal S1x256x128 .bf16) (x2 : Vec Ideal S1x4096x1 .f32) (x3 : Vec Ideal S1x1x256 .f32) :
    sout0_A_0 (F := Ideal) c i arg3 harg3 arg4 harg4 arg5 harg5 arg6 harg6 arg7 harg7 arg8 harg8 arg9 harg9 arg10 harg10 hc0 hc1 hc2 hc3 x0 x1 x2 x3 = rowNext x0 x1 x2 x3 allTop := by
  unfold sout0_A_0
  rw [View.read_writes_eq_canon _ _ _ (scover0_A_0 c i arg3 harg3 arg4 harg4 arg5 harg5 arg6 harg6 arg7 harg7 arg8 harg8 arg9 harg9 arg10 harg10 hc0 hc1 hc2 hc3 x0 x1 x2 x3)]
  unfold kernelRun0_A
  dsimp only
  sl_unfold_words
  rw [View.canon_cons_unit_zero (S := S4096x1) hz2, View.readCov_unit_zero (S := S4096x1) _ hz2]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rw [pay5_eq]
  rfl

/-- Case B: the row accumulator. -/
theorem row_B (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : ¬cond0_2 i) (hc3 : ¬cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    sout0_B_0 (F := Ideal) c i arg3 harg3 arg4 harg4 arg5 harg5 arg6 harg6 arg7 harg7 arg8 harg8 arg9 harg9 arg10 harg10 hc0 hc1 hc2 hc3 x0 x1 x2 x3 xs0 xs1 = rowNext x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 hc2 hc3 x0 x1 x2 x3 xs0 xs1)]
  unfold kernelRun0_B
  dsimp only
  sl_unfold_words
  rw [View.canon_unit_zero (S := S4096x1) hz2]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rfl

/-- Case C: the row accumulator. -/
theorem row_C (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : cond0_2 i) (hc3 : ¬cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    sout0_C_0 (F := Ideal) c i arg3 harg3 arg4 harg4 arg5 harg5 arg6 harg6 arg7 harg7 arg8 harg8 arg9 harg9 arg10 harg10 hc0 hc1 hc2 hc3 x0 x1 x2 x3 xs0 xs1 = rowNext x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 hc2 hc3 x0 x1 x2 x3 xs0 xs1)]
  unfold kernelRun0_C
  dsimp only
  sl_unfold_words
  rw [View.canon_unit_zero (S := S4096x1) hz2]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rfl

/-- Case D: the row accumulator, reset first. -/
theorem row_D (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : cond0_1 i) (hc2 : ¬cond0_2 i) (hc3 : ¬cond0_3 i)
    (x0 : Vec Ideal S1x4096x128 .bf16) (x1 : Vec Ideal S1x256x128 .bf16) (x2 : Vec Ideal S1x4096x1 .f32) (x3 : Vec Ideal S1x1x256 .f32) (xs1 : Vec Ideal S1x8192 .f32) :
    sout0_D_0 (F := Ideal) c i arg3 harg3 arg4 harg4 arg5 harg5 arg6 harg6 arg7 harg7 arg8 harg8 arg9 harg9 arg10 harg10 hc0 hc1 hc2 hc3 x0 x1 x2 x3 xs1 = rowNext x0 x1 x2 x3 allTop := by
  unfold sout0_D_0
  rw [View.read_writes_eq_canon _ _ _ (scover0_D_0 c i arg3 harg3 arg4 harg4 arg5 harg5 arg6 harg6 arg7 harg7 arg8 harg8 arg9 harg9 arg10 harg10 hc0 hc1 hc2 hc3 x0 x1 x2 x3 xs1)]
  unfold kernelRun0_D
  dsimp only
  sl_unfold_words
  rw [View.canon_cons_unit_zero (S := S4096x1) hz2, View.readCov_unit_zero (S := S4096x1) _ hz2]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rw [pay5_eq]
  rfl

/-- Case E: the row accumulator. -/
theorem row_E (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    sout0_E_0 (F := Ideal) c i arg3 harg3 arg4 harg4 arg5 harg5 arg6 harg6 arg7 harg7 arg8 harg8 arg9 harg9 arg10 harg10 hc0 hc1 hc2 hc3 x0 x1 x2 x3 xs0 xs1 = rowNext x0 x1 x2 x3 xs0 := by
  unfold sout0_E_0
  rw [View.read_writes_eq_canon _ _ _ (scover0_E_0 c i arg3 harg3 arg4 harg4 arg5 harg5 arg6 harg6 arg7 harg7 arg8 harg8 arg9 harg9 arg10 harg10 hc0 hc1 hc2 hc3 x0 x1 x2 x3 xs0 xs1)]
  unfold kernelRun0_E
  dsimp only
  sl_unfold_words
  rw [View.canon_unit_zero (S := S4096x1) hz2]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rfl

/-- Case B: the column accumulator. -/
theorem col_B (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : ¬cond0_2 i) (hc3 : ¬cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    sout0_B_1 (F := Ideal) c i arg3 harg3 arg4 harg4 arg5 harg5 arg6 harg6 arg7 harg7 arg8 harg8 arg9 harg9 arg10 harg10 hc0 hc1 hc2 hc3 x0 x1 x2 x3 xs0 xs1 = colNext x0 x1 x2 x3 (i 2).val xs1 := by
  unfold sout0_B_1 kernelRun0_B
  dsimp only
  sl_unfold_words
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  exact colStore arg10.view (harg10.unread xs1) xs1 (harg10.read_unread xs1) i x0 x1 x2 x3 _ (fun u q m hm => Cert.LibUnitLoad.ld_unit_apply xs1 _ (ix2 u q) (ix2 u m) (k0_off1_eq i) (fun a => by
      match a with
      | ⟨0, _⟩ => show u.val = 0 + u.val; omega
      | ⟨1, _⟩ => exact hm))

/-- Case C: the column accumulator. -/
theorem col_C (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : cond0_2 i) (hc3 : ¬cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    sout0_C_1 (F := Ideal) c i arg3 harg3 arg4 harg4 arg5 harg5 arg6 harg6 arg7 harg7 arg8 harg8 arg9 harg9 arg10 harg10 hc0 hc1 hc2 hc3 x0 x1 x2 x3 xs0 xs1 = colNext x0 x1 x2 x3 (i 2).val xs1 := by
  unfold sout0_C_1 kernelRun0_C
  dsimp only
  sl_unfold_words
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  exact colStore arg10.view (harg10.unread xs1) xs1 (harg10.read_unread xs1) i x0 x1 x2 x3 _ (fun u q m hm => Cert.LibUnitLoad.ld_unit_apply xs1 _ (ix2 u q) (ix2 u m) (k0_off1_eq i) (fun a => by
      match a with
      | ⟨0, _⟩ => show u.val = 0 + u.val; omega
      | ⟨1, _⟩ => exact hm))

/-- Case D: the column accumulator. -/
theorem col_D (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : cond0_1 i) (hc2 : ¬cond0_2 i) (hc3 : ¬cond0_3 i)
    (x0 : Vec Ideal S1x4096x128 .bf16) (x1 : Vec Ideal S1x256x128 .bf16) (x2 : Vec Ideal S1x4096x1 .f32) (x3 : Vec Ideal S1x1x256 .f32) (xs1 : Vec Ideal S1x8192 .f32) :
    sout0_D_1 (F := Ideal) c i arg3 harg3 arg4 harg4 arg5 harg5 arg6 harg6 arg7 harg7 arg8 harg8 arg9 harg9 arg10 harg10 hc0 hc1 hc2 hc3 x0 x1 x2 x3 xs1 = colNext x0 x1 x2 x3 (i 2).val xs1 := by
  unfold sout0_D_1 kernelRun0_D
  dsimp only
  sl_unfold_words
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  exact colStore arg10.view (harg10.unread xs1) xs1 (harg10.read_unread xs1) i x0 x1 x2 x3 _ (fun u q m hm => Cert.LibUnitLoad.ld_unit_apply xs1 _ (ix2 u q) (ix2 u m) (k0_off1_eq i) (fun a => by
      match a with
      | ⟨0, _⟩ => show u.val = 0 + u.val; omega
      | ⟨1, _⟩ => exact hm))

/-- Case E: the column accumulator. -/
theorem col_E (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    sout0_E_1 (F := Ideal) c i arg3 harg3 arg4 harg4 arg5 harg5 arg6 harg6 arg7 harg7 arg8 harg8 arg9 harg9 arg10 harg10 hc0 hc1 hc2 hc3 x0 x1 x2 x3 xs0 xs1 = colNext x0 x1 x2 x3 (i 2).val xs1 := by
  unfold sout0_E_1 kernelRun0_E
  dsimp only
  sl_unfold_words
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  exact colStore arg10.view (harg10.unread xs1) xs1 (harg10.read_unread xs1) i x0 x1 x2 x3 _ (fun u q m hm => Cert.LibUnitLoad.ld_unit_apply xs1 _ (ix2 u q) (ix2 u m) (k0_off1_eq i) (fun a => by
      match a with
      | ⟨0, _⟩ => show u.val = 0 + u.val; omega
      | ⟨1, _⟩ => exact hm))

/-- Case A: the column accumulator, reset first. -/
theorem col_A (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : cond0_0 i) (hc1 : cond0_1 i) (hc2 : ¬cond0_2 i) (hc3 : ¬cond0_3 i)
    (x0 : Vec Ideal S1x4096x128 .bf16) (x1 : Vec Ideal S1x256x128 .bf16) (x2 : Vec Ideal S1x4096x1 .f32) (x3 : Vec Ideal S1x1x256 .f32) :
    sout0_A_1 (F := Ideal) c i arg3 harg3 arg4 harg4 arg5 harg5 arg6 harg6 arg7 harg7 arg8 harg8 arg9 harg9 arg10 harg10 hc0 hc1 hc2 hc3 x0 x1 x2 x3 = colNext x0 x1 x2 x3 (i 2).val allTop := by
  unfold sout0_A_1 kernelRun0_A
  dsimp only
  sl_unfold_words
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rw [pay4_eq]
  refine (congrArg (VS0_1.read (Elt Ideal)) (View.writes_append VS0_1 VS0_1.junk [_] [_])).trans ?_
  refine colStore VS0_1 _ allTop (read_writes_cons_whole VS0_1 _ hz2 _ _ []) i x0 x1 x2 x3 _ (fun u q m hm => ?_)
  refine (Cert.LibUnitLoad.readAt_unit_apply arg10.view _ _ (ix2 u q) (ix2 u m) (k0_off1_eq i) (fun a => by
      match a with
      | ⟨0, _⟩ => show u.val = 0 + u.val; omega
      | ⟨1, _⟩ => exact hm)).trans ?_
  exact congrFun (read_writes_cons_whole arg10.view _ hz2 _ _ []) (ix2 u m)

/-- Case C: the row output block is the row accumulator, viewed [1, 4096, 1]. -/
theorem out4_C (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : cond0_2 i) (hc3 : ¬cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    out0_C_4 (F := Ideal) c i arg3 harg3 arg4 harg4 arg5 harg5 arg6 harg6 arg7 harg7 arg8 harg8 arg9 harg9 arg10 harg10 hc0 hc1 hc2 hc3 x0 x1 x2 x3 xs0 xs1 = k0_pay2 (F := Ideal) (rowNext x0 x1 x2 x3 xs0) := by
  unfold out0_C_4
  rw [View.read_writes_eq_canon _ _ _ (cover0_C_4 c i arg3 harg3 arg4 harg4 arg5 harg5 arg6 harg6 arg7 harg7 arg8 harg8 arg9 harg9 arg10 harg10 hc0 hc1 hc2 hc3 x0 x1 x2 x3 xs0 xs1)]
  unfold kernelRun0_C
  dsimp only
  sl_unfold_words
  rw [View.canon_unit_zero (S := S1x4096x1) hz3, View.readCov_unit_zero (S := S4096x1) _ hz2]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rfl

/-- Case E: the row output block is the row accumulator, viewed [1, 4096, 1]. -/
theorem out4_E (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    out0_E_4 (F := Ideal) c i arg3 harg3 arg4 harg4 arg5 harg5 arg6 harg6 arg7 harg7 arg8 harg8 arg9 harg9 arg10 harg10 hc0 hc1 hc2 hc3 x0 x1 x2 x3 xs0 xs1 = k0_pay2 (F := Ideal) (rowNext x0 x1 x2 x3 xs0) := by
  unfold out0_E_4
  rw [View.read_writes_eq_canon _ _ _ (cover0_E_4 c i arg3 harg3 arg4 harg4 arg5 harg5 arg6 harg6 arg7 harg7 arg8 harg8 arg9 harg9 arg10 harg10 hc0 hc1 hc2 hc3 x0 x1 x2 x3 xs0 xs1)]
  unfold kernelRun0_E
  dsimp only
  sl_unfold_words
  rw [View.canon_unit_zero (S := S1x4096x1) hz3, View.readCov_unit_zero (S := S4096x1) _ hz2]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  rfl

/-- Case E: the column output block is the column accumulator, viewed [1, 1, 8192]. -/
theorem out5_E (c : Dev nD) (i : grid0.Coords) (arg3 : Memref sig .tc .vmem S1x4096x128 .bf16) (harg3 : arg3.IsWhole) (arg4 : Memref sig .tc .vmem S1x256x128 .bf16) (harg4 : arg4.IsWhole) (arg5 : Memref sig .tc .vmem S1x4096x1 .f32) (harg5 : arg5.IsWhole) (arg6 : Memref sig .tc .vmem S1x1x256 .f32) (harg6 : arg6.IsWhole) (arg7 : Memref sig .tc .vmem S1x4096x1 .f32) (harg7 : arg7.IsWhole) (arg8 : Memref sig .tc .vmem S1x1x8192 .f32) (harg8 : arg8.IsWhole) (arg9 : Memref sig .tc .vmem S4096x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec Ideal S1x4096x128 .bf16) (x1 : Vec Ideal S1x256x128 .bf16) (x2 : Vec Ideal S1x4096x1 .f32) (x3 : Vec Ideal S1x1x256 .f32) (xs0 : Vec Ideal S4096x1 .f32) (xs1 : Vec Ideal S1x8192 .f32) :
    out0_E_5 (F := Ideal) c i arg3 harg3 arg4 harg4 arg5 harg5 arg6 harg6 arg7 harg7 arg8 harg8 arg9 harg9 arg10 harg10 hc0 hc1 hc2 hc3 x0 x1 x2 x3 xs0 xs1 = k0_pay3 (F := Ideal) (colNext x0 x1 x2 x3 (i 2).val xs1) := by
  unfold out0_E_5
  rw [View.read_writes_eq_canon _ _ _ (cover0_E_5 c i arg3 harg3 arg4 harg4 arg5 harg5 arg6 harg6 arg7 harg7 arg8 harg8 arg9 harg9 arg10 harg10 hc0 hc1 hc2 hc3 x0 x1 x2 x3 xs0 xs1)]
  unfold kernelRun0_E
  dsimp only
  sl_unfold_words
  rw [View.canon_unit_zero (S := S1x1x8192) hz3]
  simp only [View.readAt_eq_ld, harg3.read_unread, harg4.read_unread, harg5.read_unread, harg6.read_unread, harg9.read_unread,
    harg10.read_unread, View.ld_unit_zero (S := S1x4096x128) hz3, View.ld_unit_zero (S := S1x256x128) hz3,
    View.ld_unit_zero (S := S1x4096x1) hz3, View.ld_unit_zero (S := S1x1x256) hz3, View.ld_unit_zero (S := S4096x1) hz2,
    View.ld_unit_zero (S := S1x8192) hz2]
  exact congrArg (k0_pay3 (F := Ideal)) (colStore arg10.view (harg10.unread xs1) xs1 (harg10.read_unread xs1) i x0 x1 x2 x3 _ (fun u q m hm => Cert.LibUnitLoad.ld_unit_apply xs1 _ (ix2 u q) (ix2 u m) (k0_off1_eq i) (fun a => by
      match a with
      | ⟨0, _⟩ => show u.val = 0 + u.val; omega
      | ⟨1, _⟩ => exact hm)))

/-- An accumulator column viewed as a [1, 4096, 1] block. -/
theorem pay2_apply (v : Vec Ideal S4096x1 .f32) (u : Fin 1) (p : Fin 4096) (w : Fin 1) :
    k0_pay2 (F := Ideal) v (ix3 u p w) = v (ix2 p w) := by
  unfold k0_pay2
  exact shapeCast_ab_1ab_apply v _ u p w

/-- An accumulator row viewed as a [1, 1, 8192] block. -/
theorem pay3_apply (v : Vec Ideal S1x8192 .f32) (u w : Fin 1) (m : Fin 8192) :
    k0_pay3 (F := Ideal) v (ix3 u w m) = v (ix2 w m) := by
  unfold k0_pay3
  exact shapeCast_ab_1ab_apply v _ u w m

end Cert.KernelIdeal.Pieces

end
-- ==== Proof.LibRunningMin.lean ====
/-
  Running minima over an initial segment of a finite index set.

  For a family `g : Fin N → α` in a linear order with a top element, `minBelow g k` is the minimum, folded from
  the top element, of the entries whose index is below `k`.  It is the top element for `k = 0`, the minimum of the
  whole family once `N ≤ k`, and going from `B * k` to `B * (k + 1)` takes in exactly one block of `B`
  consecutive entries: a minimum accumulated block by block is the minimum of the whole family.
-/
import Mathlib

namespace Cert.LibRunningMin

variable {α : Type*} [LinearOrder α] [OrderTop α]

/-- The least of the entries of `g` whose index is below `k` (the top element when there is none). -/
noncomputable def minBelow {N : ℕ} (g : Fin N → α) (k : ℕ) : α :=
  (Finset.univ.filter fun m : Fin N => m.val < k).fold min ⊤ g

/-- A bound lies below the fold of `min` from the top element exactly when it lies below every entry. -/
theorem le_fold_min_top {ι : Type*} (s : Finset ι) (f : ι → α) (c : α) :
    c ≤ s.fold min ⊤ f ↔ ∀ x ∈ s, c ≤ f x := by
  rw [Finset.le_fold_min]
  exact ⟨fun h => h.2, fun h => ⟨le_top, h⟩⟩

theorem le_minBelow {N : ℕ} (g : Fin N → α) (k : ℕ) (c : α) :
    c ≤ minBelow g k ↔ ∀ m : Fin N, m.val < k → c ≤ g m := by
  unfold minBelow
  rw [le_fold_min_top]
  exact ⟨fun h m hm => h m (Finset.mem_filter.2 ⟨Finset.mem_univ _, hm⟩), fun h m hm => h m (Finset.mem_filter.1 hm).2⟩

/-- Below index zero there is no entry. -/
theorem minBelow_zero {N : ℕ} (g : Fin N → α) : minBelow g 0 = ⊤ :=
  top_unique ((le_minBelow g 0 ⊤).2 fun m hm => absurd hm (Nat.not_lt_zero _))

/-- Once the bound passes every index, the running minimum is the minimum of the whole family. -/
theorem minBelow_all {N : ℕ} (g : Fin N → α) (k : ℕ) (h : N ≤ k) :
    minBelow g k = (Finset.univ : Finset (Fin N)).fold min ⊤ g :=
  eq_of_forall_le_iff fun c => by
    rw [le_minBelow, le_fold_min_top]
    exact ⟨fun hm m _ => hm m (lt_of_lt_of_le m.isLt h), fun hm m _ => hm m (Finset.mem_univ _)⟩

/-- One more block: the entries below `B * (k + 1)` are those below `B * k` and the `B` entries `B * k + j`. -/
theorem minBelow_block {N : ℕ} (g : Fin N → α) (B k : ℕ) (row : Fin B → Fin N)
    (hrow : ∀ j : Fin B, (row j).val = B * k + j.val) :
    minBelow g (B * (k + 1)) = min (minBelow g (B * k)) ((Finset.univ : Finset (Fin B)).fold min ⊤ fun j => g (row j)) :=
  eq_of_forall_le_iff fun c => by
    rw [le_min_iff, le_minBelow, le_minBelow, le_fold_min_top]
    constructor
    · intro h
      refine ⟨fun m hm => h m (lt_of_lt_of_le hm (Nat.mul_le_mul_left B (Nat.le_succ k))), fun j _ => h (row j) ?_⟩
      rw [hrow j, Nat.mul_succ]
      exact Nat.add_lt_add_left j.isLt _
    · rintro ⟨h1, h2⟩ m hm
      by_cases hlt : m.val < B * k
      · exact h1 m hlt
      · have hj : m.val - B * k < B := by rw [Nat.mul_succ] at hm; omega
        have e : row ⟨m.val - B * k, hj⟩ = m := Fin.ext (by rw [hrow]; show B * k + (m.val - B * k) = m.val; omega)
        rw [← e]
        exact h2 _ (Finset.mem_univ _)

end Cert.LibRunningMin
-- ==== Proof.States.lean ====
/-
  What the two accumulators hold after each grid point.

  Grid point `t` works on batch `t / 64`, row tile `t / 32 % 2` (4096 rows) and column tile `t % 32` (256 columns).
  After it, the row accumulator's entry `r` is the least squared distance from point `4096 * rowTile + r` of the first
  cloud to the points of the second cloud below `256 * (colTile + 1)`; the column accumulator's entry `k` is the least
  squared distance from point `k` of the second cloud to the points of the first cloud below `4096 * (rowTile + 1)` if
  column `k`'s tile has already been visited in this row tile, below `4096 * rowTile` otherwise.  One step of either is
  one more block of a running minimum.
-/
import proofs.«146107_j23433341567534_2_alg».proof.Proof.Blocks
import proofs.«146107_j23433341567534_2_alg».proof.Proof.Pieces
import proofs.«146107_j23433341567534_2_alg».proof.Proof.LibRunningMin

set_option maxRecDepth 16384

noncomputable section

namespace Cert.KernelIdeal.States

open Cert.KernelIdeal Cert.KernelIdeal.Gen Cert.KernelIdeal.Tile Cert.KernelIdeal.Pieces Cert.KernelIdeal.Blocks
open Cert.Chamfer Cert.LibRunningMin
open Idealize.ShloMosaic Idealize.ShloMosaic.TcCoe Idealize.ShloMosaic.ValueIdx Idealize.SL.Sem

variable (m : (ℓ : Loc nD τ sig) → Buf (Elt Ideal) ℓ) (c : Dev nD)

/-- The squared distance between point `n` of the first cloud and point `k` of the second in batch `b`, by numbers
    (plus infinity outside the arrays). -/
def Dn (b n k : ℕ) : EReal :=
  if h : b < 4 ∧ n < 8192 ∧ k < 8192 then
    dis (sqNorm (cloudA m c)) (sqNorm (cloudB m c)) (cloudA m c) (cloudB m c) ⟨b, h.1⟩ ⟨n, h.2.1⟩ ⟨k, h.2.2⟩
  else ⊤

/-- The least squared distance from point `n` of the first cloud to the second cloud's points below `bound`. -/
def rowVal (b n bound : ℕ) : EReal := minBelow (fun k : Fin 8192 => Dn m c b n k.val) bound
/-- The least squared distance from point `k` of the second cloud to the first cloud's points below `bound`. -/
def colVal (b k bound : ℕ) : EReal := minBelow (fun n : Fin 8192 => Dn m c b n.val k) bound

/-- The row accumulator after grid point `t`. -/
def rowState (t : ℕ) : Vec Ideal S4096x1 .f32 := fun y =>
  rowVal m c (t / 64) (4096 * (t / 32 % 2) + (y 0).val) (256 * (t % 32 + 1))

/-- The column accumulator after grid point `t`. -/
def colState (t : ℕ) : Vec Ideal S1x8192 .f32 := fun y =>
  colVal m c (t / 64) (y 1).val (if (y 1).val < 256 * (t % 32 + 1) then 4096 * (t / 32 % 2 + 1) else 4096 * (t / 32 % 2))

theorem rowVal_congr {b b' n n' k k' : ℕ} (h1 : b = b') (h2 : n = n') (h3 : k = k') :
    rowVal m c b n k = rowVal m c b' n' k' := by subst h1 h2 h3; rfl
theorem colVal_congr {b b' n n' k k' : ℕ} (h1 : b = b') (h2 : n = n') (h3 : k = k') :
    colVal m c b n k = colVal m c b' n' k' := by subst h1 h2 h3; rfl

/-- The tile of grid point `t`, by numbers. -/
theorem tile_Dn (t : Fin cfg0.N) (p : Fin 4096) (q : Fin 256) :
    tileDis (iblk m c 0 t) (iblk m c 1 t) (iblk m c 2 t) (iblk m c 3 t) p q
      = Dn m c (t.val / 64) (4096 * (t.val / 32 % 2) + p.val) (256 * (t.val % 32) + q.val) := by
  have hN : cfg0.N = 256 := N_0
  have ht : t.val < 256 := hN ▸ t.isLt
  have h : t.val / 64 < 4 ∧ 4096 * (t.val / 32 % 2) + p.val < 8192 ∧ 256 * (t.val % 32) + q.val < 8192 := by
    have := p.isLt; have := q.isLt; omega
  unfold Dn
  rw [dif_pos h]
  exact tile_eq m c t p q _ _ _ rfl rfl rfl

/-- One step of the row accumulator. -/
theorem row_step (t : Fin cfg0.N) (prev : Vec Ideal S4096x1 .f32)
    (hreset : t.val % 32 = 0 → prev = allTop) (hprev : ¬t.val % 32 = 0 → prev = rowState m c (t.val - 1)) :
    rowNext (iblk m c 0 t) (iblk m c 1 t) (iblk m c 2 t) (iblk m c 3 t) prev = rowState m c t.val := by
  have hN : cfg0.N = 256 := N_0
  have ht : t.val < 256 := hN ▸ t.isLt
  funext y
  obtain ⟨r, u, rfl⟩ : ∃ (r : Fin 4096) (u : Fin 1), y = ix2 r u := ⟨y 0, y 1, eq_ix2 y⟩
  unfold rowNext
  rw [pay7_apply]
  show _ = rowVal m c (t.val / 64) (4096 * (t.val / 32 % 2) + r.val) (256 * (t.val % 32 + 1))
  unfold rowVal
  rw [minBelow_block _ 256 (t.val % 32) (fun q : Fin 256 => (⟨256 * (t.val % 32) + q.val, by have := q.isLt; omega⟩ : Fin 8192))
    (fun q => rfl)]
  refine congrArg₂ min ?_ (congrArg (fun g => (Finset.univ : Finset (Fin 256)).fold min ⊤ g) (funext fun q => tile_Dn m c t r q))
  by_cases h0 : t.val % 32 = 0
  · rw [hreset h0, h0, Nat.mul_zero, minBelow_zero]
    rfl
  · rw [hprev h0]
    show rowVal m c ((t.val - 1) / 64) (4096 * ((t.val - 1) / 32 % 2) + r.val) (256 * ((t.val - 1) % 32 + 1)) = _
    exact rowVal_congr m c (by omega) (by omega) (by omega)

/-- One step of the column accumulator. -/
theorem col_step (t : Fin cfg0.N) (prev : Vec Ideal S1x8192 .f32) (mi : ℕ) (hmi : mi = t.val % 32)
    (hreset : t.val % 64 = 0 → prev = allTop) (hprev : ¬t.val % 64 = 0 → prev = colState m c (t.val - 1)) :
    colNext (iblk m c 0 t) (iblk m c 1 t) (iblk m c 2 t) (iblk m c 3 t) mi prev = colState m c t.val := by
  have hN : cfg0.N = 256 := N_0
  have ht : t.val < 256 := hN ▸ t.isLt
  subst hmi
  funext y
  obtain ⟨u, k, rfl⟩ : ∃ (u : Fin 1) (k : Fin 8192), y = ix2 u k := ⟨y 0, y 1, eq_ix2 y⟩
  have hk : k.val < 8192 := k.isLt
  -- what the accumulator held at column k before this point
  have hold : prev (ix2 u k) = colVal m c (t.val / 64) k.val
      (if k.val < 256 * (t.val % 32) then 4096 * (t.val / 32 % 2 + 1) else 4096 * (t.val / 32 % 2)) := by
    by_cases h0 : t.val % 64 = 0
    · rw [hreset h0]
      have e : (if k.val < 256 * (t.val % 32) then 4096 * (t.val / 32 % 2 + 1) else 4096 * (t.val / 32 % 2)) = 0 := by
        split <;> omega
      rw [e]
      exact (minBelow_zero _).symm
    · rw [hprev h0]
      show colVal m c ((t.val - 1) / 64) k.val (if k.val < 256 * ((t.val - 1) % 32 + 1) then 4096 * ((t.val - 1) / 32 % 2 + 1)
        else 4096 * ((t.val - 1) / 32 % 2)) = _
      refine colVal_congr m c (by omega) rfl ?_
      split <;> split <;> omega
  unfold colNext
  show (if h : 256 * (t.val % 32) ≤ k.val ∧ k.val < 256 * (t.val % 32) + 256 then _ else prev (ix2 u k))
    = colVal m c (t.val / 64) k.val (if k.val < 256 * (t.val % 32 + 1) then 4096 * (t.val / 32 % 2 + 1) else 4096 * (t.val / 32 % 2))
  by_cases h : 256 * (t.val % 32) ≤ k.val ∧ k.val < 256 * (t.val % 32) + 256
  · rw [dif_pos h, hold, if_neg (by omega), if_pos (by omega)]
    unfold colVal
    rw [minBelow_block _ 4096 (t.val / 32 % 2) (fun p : Fin 4096 => (⟨4096 * (t.val / 32 % 2) + p.val, by have := p.isLt; omega⟩ : Fin 8192))
      (fun p => rfl)]
    refine congrArg (min _) (congrArg (fun g => (Finset.univ : Finset (Fin 4096)).fold min ⊤ g) (funext fun p => ?_))
    refine (tile_Dn m c t p _).trans ?_
    show Dn m c (t.val / 64) (4096 * (t.val / 32 % 2) + p.val) (256 * (t.val % 32) + (k.val - 256 * (t.val % 32))) = _
    rw [show 256 * (t.val % 32) + (k.val - 256 * (t.val % 32)) = k.val from by omega]
  · rw [dif_neg h, hold]
    refine colVal_congr m c rfl rfl ?_
    split <;> split <;> omega

end Cert.KernelIdeal.States

end
-- ==== Proof.Invariant.lean ====
/-
  The accumulators and the output blocks after every grid point, by induction along the grid.

  Whatever control case a grid point falls in, its body leaves the row accumulator at `rowNext` and the column accumulator
  at `colNext` of what the point before left (or of plus infinity where the case resets first); by the one-step laws these
  are `rowState` and `colState` of the point.  Where a case copies an accumulator to its output block, the block holds
  that state.
-/
import proofs.«146107_j23433341567534_2_alg».proof.Proof.States

set_option maxRecDepth 16384

noncomputable section

namespace Cert.KernelIdeal.Invariant

open Cert.KernelIdeal Cert.KernelIdeal.Gen Cert.KernelIdeal.Tile Cert.KernelIdeal.Pieces Cert.KernelIdeal.Blocks
open Cert.KernelIdeal.States
open Idealize.ShloMosaic Idealize.ShloMosaic.TcCoe Idealize.ShloMosaic.ValueIdx Idealize.SL.Sem

variable (m : (ℓ : Loc nD τ sig) → Buf (Elt Ideal) ℓ) (c : Dev nD)

/-- One grid point: if the point before left the two states, so does this one. -/
theorem step (t : Fin cfg0.N)
    (ih : ¬t.val = 0 →
      (outsAt0 m c (t.val - 1) (Nat.lt_of_le_of_lt (Nat.sub_le _ _) t.isLt)).2.2.1 = rowState m c (t.val - 1)
      ∧ (outsAt0 m c (t.val - 1) (Nat.lt_of_le_of_lt (Nat.sub_le _ _) t.isLt)).2.2.2 = colState m c (t.val - 1)) :
    (outsAt0 m c t.val t.isLt).2.2.1 = rowState m c t.val ∧ (outsAt0 m c t.val t.isLt).2.2.2 = colState m c t.val := by
  have hN : cfg0.N = 256 := N_0
  have ht : t.val < 256 := hN ▸ t.isLt
  by_cases h0 : t.val % 64 = 0
  · have h1 : t.val % 32 = 0 := by omega
    have h2 : ¬t.val % 32 = 31 := by omega
    have h3 : ¬t.val % 64 = 63 := by omega
    rw [outsAt0_A m c t h0 h1 h2 h3]
    dsimp only
    exact ⟨(row_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)).trans (row_step m c t allTop (fun _ => rfl) (fun hh => absurd h1 hh)),
      (col_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)).trans (col_step m c t allTop _ (coord2 t) (fun _ => rfl) (fun hh => absurd h0 hh))⟩
  · have hne : ¬t.val = 0 := by omega
    by_cases h1 : t.val % 32 = 0
    · have h2 : ¬t.val % 32 = 31 := by omega
      have h3 : ¬t.val % 64 = 63 := by omega
      rw [outsAt0_D m c t h0 h1 h2 h3]
      dsimp only
      exact ⟨(row_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.2).trans (row_step m c t allTop (fun _ => rfl) (fun hh => absurd h1 hh)),
        (col_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.2).trans (col_step m c t _ _ (coord2 t) (fun hh => absurd hh h0) (fun _ => (ih hne).2))⟩
    · by_cases h2 : t.val % 32 = 31
      · by_cases h3 : t.val % 64 = 63
        · rw [outsAt0_E m c t h0 h1 h2 h3]
          dsimp only
          exact ⟨(row_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (row_step m c t _ (fun hh => absurd hh h1) (fun _ => (ih hne).1)),
            (col_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (col_step m c t _ _ (coord2 t) (fun hh => absurd hh h0) (fun _ => (ih hne).2))⟩
        · rw [outsAt0_C m c t h0 h1 h2 h3]
          dsimp only
          exact ⟨(row_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (row_step m c t _ (fun hh => absurd hh h1) (fun _ => (ih hne).1)),
            (col_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (col_step m c t _ _ (coord2 t) (fun hh => absurd hh h0) (fun _ => (ih hne).2))⟩
      · have h3 : ¬t.val % 64 = 63 := by omega
        rw [outsAt0_B m c t h0 h1 h2 h3]
        dsimp only
        exact ⟨(row_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (row_step m c t _ (fun hh => absurd hh h1) (fun _ => (ih hne).1)),
          (col_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (col_step m c t _ _ (coord2 t) (fun hh => absurd hh h0) (fun _ => (ih hne).2))⟩

/-- After every grid point the two accumulators hold their states. -/
theorem scratch_eq (n : ℕ) : ∀ h : n < cfg0.N,
    (outsAt0 m c n h).2.2.1 = rowState m c n ∧ (outsAt0 m c n h).2.2.2 = colState m c n := by
  induction n using Nat.strong_induction_on with
  | _ n ih =>
    intro h
    exact step m c ⟨n, h⟩ (fun hn => ih (n - 1) (Nat.sub_lt (Nat.pos_of_ne_zero hn) Nat.one_pos) _)

/-- At the last column tile of a row tile the row output block holds the row accumulator's state. -/
theorem out4_eq (t : Fin cfg0.N) (h2 : t.val % 32 = 31) :
    (outsAt0 m c t.val t.isLt).1 = k0_pay2 (F := Ideal) (rowState m c t.val) := by
  have hN : cfg0.N = 256 := N_0
  have ht : t.val < 256 := hN ▸ t.isLt
  have h0 : ¬t.val % 64 = 0 := by omega
  have h1 : ¬t.val % 32 = 0 := by omega
  have hne : ¬t.val = 0 := by omega
  have ih := scratch_eq m c (t.val - 1) (Nat.lt_of_le_of_lt (Nat.sub_le _ _) t.isLt)
  by_cases h3 : t.val % 64 = 63
  · rw [outsAt0_E m c t h0 h1 h2 h3]
    dsimp only
    exact (out4_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg (k0_pay2 (F := Ideal)) (row_step m c t _ (fun hh => absurd hh h1) (fun _ => ih.1)))
  · rw [outsAt0_C m c t h0 h1 h2 h3]
    dsimp only
    exact (out4_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg (k0_pay2 (F := Ideal)) (row_step m c t _ (fun hh => absurd hh h1) (fun _ => ih.1)))

/-- At a batch's last grid point the column output block holds the column accumulator's state. -/
theorem out5_eq (t : Fin cfg0.N) (h3 : t.val % 64 = 63) :
    (outsAt0 m c t.val t.isLt).2.1 = k0_pay3 (F := Ideal) (colState m c t.val) := by
  have hN : cfg0.N = 256 := N_0
  have ht : t.val < 256 := hN ▸ t.isLt
  have h0 : ¬t.val % 64 = 0 := by omega
  have h1 : ¬t.val % 32 = 0 := by omega
  have h2 : t.val % 32 = 31 := by omega
  have ih := scratch_eq m c (t.val - 1) (Nat.lt_of_le_of_lt (Nat.sub_le _ _) t.isLt)
  rw [outsAt0_E m c t h0 h1 h2 h3]
  dsimp only
  exact (out5_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg (k0_pay3 (F := Ideal)) (col_step m c t _ _ (coord2 t) (fun hh => absurd hh h0) (fun _ => ih.2)))

end Cert.KernelIdeal.Invariant

end
-- ==== Proof.KernelValue.lean ====
/-
  The kernel's two result arrays and its final number.

  The row output block of a row tile is written back after the tile's last column tile, holding the row accumulator:
  the least squared distance over all 8192 points of the second cloud.  The column output block of a batch is written
  back after the batch's last grid point, holding the column accumulator: the least over all 8192 points of the first
  cloud.  Those blocks tile the two result arrays, so the arrays are the row and column minima of the squared distances,
  and the host operations after the kernel take their mean of means.
-/
import proofs.«146107_j23433341567534_2_alg».proof.Proof.Invariant
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Cert.KernelIdeal.Tile Cert.KernelIdeal.Pieces Cert.KernelIdeal.Blocks
open Cert.KernelIdeal.States Cert.KernelIdeal.Invariant Cert.Chamfer Cert.LibRunningMin
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The row result array: each first-cloud point's least squared distance, as a column per batch. -/
def rowArr : Buf (Elt Ideal) ((c.tc : Thread nD τ).loc main_v9_0) := fun i =>
  rowVal m c (i 0).val (i 1).val 8192

/-- The column result array: each second-cloud point's least squared distance, as a row per batch. -/
def colArr : Buf (Elt Ideal) ((c.tc : Thread nD τ).loc main_v9_1) := fun i =>
  colVal m c (i 0).val (i 2).val 8192

/-- What the write-back of window 4 at a flushing point writes: its block of the row result array. -/
theorem flushed4_eq (t : Fin cfg0.N) (hf : (cfg0.win 4).flush t = true) :
    (dats m 0 c).flushed 4 t = ((cfg0.win 4).blk t).view.read (Elt Ideal) (rowArr m c) := by
  have hN : cfg0.N = 256 := N_0
  have ht : t.val < 256 := hN ▸ t.isLt
  have h2 : t.val % 32 = 31 := (flush0_4 t).mp hf
  obtain ⟨-, -, -, -, ⟨e0, e1, e2⟩, -⟩ := idx_facts t
  show (cfg0.win 4).cut (grid0.coords t) ((dats m 0 c).after 4 t) = _
  rw [after0_4, out4_eq m c t h2]
  funext y
  obtain ⟨u, r, w, rfl⟩ : ∃ (u : Fin 1) (r : Fin 4096) (w : Fin 1), y = ix3 u r w := ⟨y 0, y 1, y 2, eq_ix3 y⟩
  have hu := u.isLt
  show k0_pay2 (F := Ideal) (rowState m c t.val) (ix3 u r w) = rowArr m c (((cfg0.win 4).blk t).view.emb (ix3 u r w))
  rw [pay2_apply]
  refine rowVal_congr m c ?_ ?_ ?_
  · show t.val / 64 = win0_4.index t (0 : Fin 3) * 1 + 1 * u.val; omega
  · show 4096 * (t.val / 32 % 2) + r.val = win0_4.index t (1 : Fin 3) * 4096 + 1 * r.val; omega
  · omega

/-- What the write-back of window 5 at a flushing point writes: its block of the column result array. -/
theorem flushed5_eq (t : Fin cfg0.N) (hf : (cfg0.win 5).flush t = true) :
    (dats m 0 c).flushed 5 t = ((cfg0.win 5).blk t).view.read (Elt Ideal) (colArr m c) := by
  have hN : cfg0.N = 256 := N_0
  have ht : t.val < 256 := hN ▸ t.isLt
  have h3 : t.val % 64 = 63 := (flush0_5 t).mp hf
  obtain ⟨-, -, -, -, -, ⟨e0, e1, e2⟩⟩ := idx_facts t
  show (cfg0.win 5).cut (grid0.coords t) ((dats m 0 c).after 5 t) = _
  rw [after0_5, out5_eq m c t h3]
  funext y
  obtain ⟨u, w, k, rfl⟩ : ∃ (u : Fin 1) (w : Fin 1) (k : Fin 8192), y = ix3 u w k := ⟨y 0, y 1, y 2, eq_ix3 y⟩
  have hu := u.isLt
  have hk := k.isLt
  show k0_pay3 (F := Ideal) (colState m c t.val) (ix3 u w k) = colArr m c (((cfg0.win 5).blk t).view.emb (ix3 u w k))
  rw [pay3_apply]
  refine colVal_congr m c ?_ ?_ ?_
  · show t.val / 64 = win0_5.index t (0 : Fin 3) * 1 + 1 * u.val; omega
  · show k.val = win0_5.index t (2 : Fin 3) * 8192 + 1 * k.val; omega
  · show (if k.val < 256 * (t.val % 32 + 1) then 4096 * (t.val / 32 % 2 + 1) else 4096 * (t.val / 32 % 2)) = 8192
    rw [if_pos (by omega)]; omega

/-- An index of the row result array is in point `t`'s block iff each coordinate is in the block's range. -/
theorem mem_blk4 (t : Fin cfg0.N) (i : S4x8192x1.Idx) :
    i ∈ ((cfg0.win 4).blk t).view.set ↔ ∀ a : Fin 3, win0_4.index t a * S1x4096x1.size a ≤ (i a).val ∧ (i a).val < win0_4.index t a * S1x4096x1.size a + S1x4096x1.size a := by
  show i ∈ ((View.whole main_v9_0).slice (win0_4.rect t)).set ↔ _
  rw [View.set_slice_whole, Rect.mem_set_unit]
  exact Iff.rfl

/-- An index of the column result array is in point `t`'s block iff each coordinate is in the block's range. -/
theorem mem_blk5 (t : Fin cfg0.N) (i : S4x1x8192.Idx) :
    i ∈ ((cfg0.win 5).blk t).view.set ↔ ∀ a : Fin 3, win0_5.index t a * S1x1x8192.size a ≤ (i a).val ∧ (i a).val < win0_5.index t a * S1x1x8192.size a + S1x1x8192.size a := by
  show i ∈ ((View.whole main_v9_1).slice (win0_5.rect t)).set ↔ _
  rw [View.set_slice_whole, Rect.mem_set_unit]
  exact Iff.rfl

/-- The row result array after the run. -/
theorem final4 : (dats m 0 c).arrAt 4 cfg0.N = rowArr m c :=
  (dats m 0 c).arrAt_eq_of_cover 4 (rowArr m c) (flushed4_eq m c) fun i => by
    have hN : cfg0.N = 256 := N_0
    have h0 : (i 0).val < 4 := (i 0).isLt
    have h1 : (i 1).val < 8192 := (i 1).isLt
    have h2 : (i 2).val < 1 := (i 2).isLt
    have htt : 64 * (i 0).val + 32 * ((i 1).val / 4096) + 31 < cfg0.N := by rw [hN]; omega
    refine ⟨⟨64 * (i 0).val + 32 * ((i 1).val / 4096) + 31, htt⟩, (flush0_4 _).mpr (by show (64 * (i 0).val + 32 * ((i 1).val / 4096) + 31) % 32 = 31; omega), ?_⟩
    rw [mem_blk4]
    obtain ⟨-, -, -, -, ⟨e0, e1, e2⟩, -⟩ := idx_facts ⟨64 * (i 0).val + 32 * ((i 1).val / 4096) + 31, htt⟩
    intro a
    match a with
    | ⟨0, _⟩ =>
      show win0_4.index _ (0 : Fin 3) * 1 ≤ (i 0).val ∧ (i 0).val < win0_4.index _ (0 : Fin 3) * 1 + 1
      rw [e0]; show (64 * (i 0).val + 32 * ((i 1).val / 4096) + 31) / 64 * 1 ≤ (i 0).val ∧ (i 0).val < (64 * (i 0).val + 32 * ((i 1).val / 4096) + 31) / 64 * 1 + 1; omega
    | ⟨1, _⟩ =>
      show win0_4.index _ (1 : Fin 3) * 4096 ≤ (i 1).val ∧ (i 1).val < win0_4.index _ (1 : Fin 3) * 4096 + 4096
      rw [e1]; show (64 * (i 0).val + 32 * ((i 1).val / 4096) + 31) / 32 % 2 * 4096 ≤ (i 1).val ∧ (i 1).val < (64 * (i 0).val + 32 * ((i 1).val / 4096) + 31) / 32 % 2 * 4096 + 4096; omega
    | ⟨2, _⟩ =>
      show win0_4.index _ (2 : Fin 3) * 1 ≤ (i 2).val ∧ (i 2).val < win0_4.index _ (2 : Fin 3) * 1 + 1
      rw [e2]; omega

/-- The column result array after the run. -/
theorem final5 : (dats m 0 c).arrAt 5 cfg0.N = colArr m c :=
  (dats m 0 c).arrAt_eq_of_cover 5 (colArr m c) (flushed5_eq m c) fun i => by
    have hN : cfg0.N = 256 := N_0
    have h0 : (i 0).val < 4 := (i 0).isLt
    have h1 : (i 1).val < 1 := (i 1).isLt
    have h2 : (i 2).val < 8192 := (i 2).isLt
    have htt : 64 * (i 0).val + 63 < cfg0.N := by rw [hN]; omega
    refine ⟨⟨64 * (i 0).val + 63, htt⟩, (flush0_5 _).mpr (by show (64 * (i 0).val + 63) % 64 = 63; omega), ?_⟩
    rw [mem_blk5]
    obtain ⟨-, -, -, -, -, ⟨e0, e1, e2⟩⟩ := idx_facts ⟨64 * (i 0).val + 63, htt⟩
    intro a
    match a with
    | ⟨0, _⟩ =>
      show win0_5.index _ (0 : Fin 3) * 1 ≤ (i 0).val ∧ (i 0).val < win0_5.index _ (0 : Fin 3) * 1 + 1
      rw [e0]; show (64 * (i 0).val + 63) / 64 * 1 ≤ (i 0).val ∧ (i 0).val < (64 * (i 0).val + 63) / 64 * 1 + 1; omega
    | ⟨1, _⟩ =>
      show win0_5.index _ (1 : Fin 3) * 1 ≤ (i 1).val ∧ (i 1).val < win0_5.index _ (1 : Fin 3) * 1 + 1
      rw [e1]; omega
    | ⟨2, _⟩ =>
      show win0_5.index _ (2 : Fin 3) * 8192 ≤ (i 2).val ∧ (i 2).val < win0_5.index _ (2 : Fin 3) * 8192 + 8192
      rw [e2]; omega

/-- The row result array viewed [4, 8192] is the row minimum of the squared distances. -/
theorem rowArr_cast : shapeCast S4x8192 (rowArr m c) shapeCasts_S4x8192x1_S4x8192
    = rowMin (sqNorm (cloudA m c)) (sqNorm (cloudB m c)) (cloudA m c) (cloudB m c) := by
  funext i
  obtain ⟨b, n, rfl⟩ : ∃ (b : Fin 4) (n : Fin 8192), i = ix2 b n := ⟨i 0, i 1, eq_ix2 i⟩
  refine (shapeCast_apply (rowArr m c) shapeCasts_S4x8192x1_S4x8192 (ix2 b n) (ix3 b n (0 : Fin 1)) (by
    show (S4x8192x1.rowMajor (ix3 b n (0 : Fin 1))).val = (S4x8192.rowMajor (ix2 b n)).val
    rw [Shape.rowMajor_val_three, Shape.rowMajor_val_two]
    show (b.val * 8192 + n.val) * 1 + 0 = b.val * 8192 + n.val
    omega)).trans ?_
  show rowVal m c b.val n.val 8192 = _
  unfold rowVal rowMin
  rw [minBelow_all _ 8192 (le_refl _)]
  refine congrArg (fun g => (Finset.univ : Finset (Fin 8192)).fold min ⊤ g) (funext fun k => ?_)
  unfold Dn
  rw [dif_pos ⟨b.isLt, n.isLt, k.isLt⟩]

/-- The column result array viewed [4, 8192] is the column minimum of the squared distances. -/
theorem colArr_cast : shapeCast S4x8192 (colArr m c) shapeCasts_S4x1x8192_S4x8192
    = colMin (sqNorm (cloudA m c)) (sqNorm (cloudB m c)) (cloudA m c) (cloudB m c) := by
  funext i
  obtain ⟨b, k, rfl⟩ : ∃ (b : Fin 4) (k : Fin 8192), i = ix2 b k := ⟨i 0, i 1, eq_ix2 i⟩
  refine (shapeCast_apply (colArr m c) shapeCasts_S4x1x8192_S4x8192 (ix2 b k) (ix3 b (0 : Fin 1) k) (by
    show (S4x1x8192.rowMajor (ix3 b (0 : Fin 1) k)).val = (S4x8192.rowMajor (ix2 b k)).val
    rw [Shape.rowMajor_val_three, Shape.rowMajor_val_two]
    show (b.val * 1 + 0) * 8192 + k.val = b.val * 8192 + k.val
    omega)).trans ?_
  show colVal m c b.val k.val 8192 = _
  unfold colVal colMin
  rw [minBelow_all _ 8192 (le_refl _)]
  refine congrArg (fun g => (Finset.univ : Finset (Fin 8192)).fold min ⊤ g) (funext fun n => ?_)
  unfold Dn
  rw [dif_pos ⟨b.isLt, n.isLt, k.isLt⟩]

/-- The kernel's final number: the mean of means of the two minima. -/
def kernelResult : Buf (Elt Ideal) ((c.tc : Thread nD τ).loc main_v20) :=
  meanOfMeans reducesTo_S4x8192_S4_d1 reducesTo_S4_S_d0 bcast_S_S4 h_S_
    (rowMin (sqNorm (cloudA m c)) (sqNorm (cloudB m c)) (cloudA m c) (cloudB m c))
    (colMin (sqNorm (cloudA m c)) (sqNorm (cloudB m c)) (cloudA m c) (cloudB m c))

/-- The host operations after the kernel, run on the two result arrays. -/
theorem result_eq : Pipeline.afterTail₀ cfgs (dats m) 0 (V0 m) [hostOps1] c main_v20 = kernelResult m c := by
  have e4 : Pipeline.withArrays (cfgs 0).spec c (V0 m c) (fun w => (dats m 0 c).arrAt w (cfgs 0).N) (Proc.devRef .tc main_v9_0)
      = rowArr m c := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v9_1)
      = colArr m c := (Pipeline.withArrays_arr spec0 launch0.win.arr_inj c _ _ 5).trans (final5 m c)
  unfold Pipeline.afterTail₀
  show StableHlo.after hostOps1 _ (Proc.devRef .tc main_v20) = _
  after_results
  rw [e4, e5]
  unfold kernelResult
  rw [← rowArr_cast, ← colArr_cast]
  rfl

/-- The kernel's run: every weakly fair execution ends with the result at the mean of means of the two minima and the
    clouds unchanged. -/
theorem run : θ_run defs (onTc (τ := τ) (main (F := Ideal))) ⟨m, fun _ => 0, ρ⟩ (fun r => ∀ c : Dev nD,
      r.2.mem ((c.tc : Thread nD τ).loc main_v20) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.lean ====
/-
  Chamfer distance: the tiled kernel against the jnp reference, over the extended reals.

  Both programs compute, for two batches of 4 x 8192 points in 128 dimensions, the squared distances
  |a_n|^2 + |b_m|^2 - 2 <a_n, b_m>, each point's least squared distance to the other cloud, and the batch mean of the sum
  of the two clouds' mean distances.  The reference forms the whole [4, 8192, 8192] array and reduces it with `minimum`
  along each axis.  The kernel walks 4 x 2 x 32 tiles of 4096 x 256 entries (the inner products by a matrix product of
  the clouds' bf16 copies, which at the exact values are the clouds), keeping a running row minimum across a row tile's 32
  column tiles and a running column minimum across a batch's 2 row tiles.  A minimum taken block by block from plus
  infinity is the minimum of the whole family (min is associative, commutative and idempotent, so no finiteness is
  needed), hence the kernel's two result arrays are the reference's two reductions; the host operations that follow are
  the same in both programs.  The idealization rewrote nothing, so its conjunct is trivial.
-/
import proofs.«146107_j23433341567534_2_alg».proof.Defs
import proofs.«146107_j23433341567534_2_alg».proof.Proof.Gen.Kernel
import proofs.«146107_j23433341567534_2_alg».proof.Proof.Gen.Kernel.Frame
import proofs.«146107_j23433341567534_2_alg».proof.Proof.Gen.KernelIdeal
import proofs.«146107_j23433341567534_2_alg».proof.Proof.Gen.KernelIdeal.Frame
import proofs.«146107_j23433341567534_2_alg».proof.Proof.Gen.ReferenceIdeal
import proofs.«146107_j23433341567534_2_alg».proof.Proof.Gen.Pre_finite_inputs
import proofs.«146107_j23433341567534_2_alg».proof.Proof.Gen.ReferenceIdeal.Run
import proofs.«146107_j23433341567534_2_alg».proof.Proof.Gen.ReferenceIdeal.Read
import proofs.«146107_j23433341567534_2_alg».proof.Proof.RefValue
import proofs.«146107_j23433341567534_2_alg».proof.Proof.KernelValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The two idealized programs, from memories that agree on the clouds, end with the same number: the mean of means of the
    row and column minima of the squared distances. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.kernelResult m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v23_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
